-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S2x512x768 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x768 : Shape := ⟨3, ![64, 512, 768]⟩
abbrev S64x512 : Shape := ⟨2, ![64, 512]⟩
abbrev S_ : Shape := ⟨0, ![]⟩

class Facts : Prop where
  bcast_S_S64x512x768 : S_.BroadcastsInDim S64x512x768 (![] : Fin 0 → Fin S64x512x768.rank)
  reducesTo_S64x512x768_S_d0_1_2 : S64x512x768.ReducesTo [0, 1, 2] S_
  h_S_ : 0 < S_.numel

variable [Facts]

def fn {F : FTy → Type} [FloatOps F] (main_arg0 : FVec F S64x512x768 .f32) (main_arg1 : IVec S64x512 32) : IVec S_ 1 :=
  let main_v0 : FVec F S64x512x768 .f32 := Host.absf main_arg0
  let main_cst : FVec F S_ .f32 := constant S_ .f32 0x7F800000#32
  let main_v1 : FVec F S64x512x768 .f32 := broadcastInDim S64x512x768 ![] bcast_S_S64x512x768 main_cst
  let main_v2 : IVec S64x512x768 1 := cmpf .olt main_v0 main_v1
  let main_c : IVec S_ 1 := constantI S_ 1 1#1
  let main_v3 : IVec S_ 1 := (fun x v => Host.reduce IntOp.andi x v reducesTo_S64x512x768_S_d0_1_2 h_S_) main_v2 main_c
  main_v3
-- ==== Kernel.lean ====
abbrev S64x512x768 : Shape := ⟨3, ![64, 512, 768]⟩
abbrev S64x512 : Shape := ⟨2, ![64, 512]⟩
abbrev S_ : Shape := ⟨0, ![]⟩
abbrev S64x1x512 : Shape := ⟨3, ![64, 1, 512]⟩
abbrev S2x512x768 : Shape := ⟨3, ![2, 512, 768]⟩
abbrev S2x1x512 : Shape := ⟨3, ![2, 1, 512]⟩
abbrev S2x512 : Shape := ⟨2, ![2, 512]⟩
abbrev S1x512x512 : Shape := ⟨3, ![1, 512, 512]⟩
abbrev S2x512x512 : Shape := ⟨3, ![2, 512, 512]⟩

abbrev nBuf : Space → Nat
  | .hbm => 18
  | .vmem => 6
  | .smem => 0
  | _ => 0

abbrev bufTy : (tb : Table) → Fin (tcTables nBuf tb) → BufTy
  | .hbm, ⟨0, _⟩ => ⟨S64x512x768, .f32⟩
  | .hbm, ⟨1, _⟩ => ⟨S64x512, .i32⟩
  | .hbm, ⟨2, _⟩ => ⟨S_, .i32⟩
  | .hbm, ⟨3, _⟩ => ⟨S64x512, .i32⟩
  | .hbm, ⟨4, _⟩ => ⟨S64x512, .i1⟩
  | .hbm, ⟨5, _⟩ => ⟨S64x512, .i32⟩
  | .hbm, ⟨6, _⟩ => ⟨S_, .i32⟩
  | .hbm, ⟨7, _⟩ => ⟨S_, .i32⟩
  | .hbm, ⟨8, _⟩ => ⟨S64x512, .i32⟩
  | .hbm, ⟨9, _⟩ => ⟨S_, .i32⟩
  | .hbm, ⟨10, _⟩ => ⟨S64x512, .i32⟩
  | .hbm, ⟨11, _⟩ => ⟨S64x512, .i32⟩
  | .hbm, ⟨12, _⟩ => ⟨S_, .i32⟩
  | .hbm, ⟨13, _⟩ => ⟨S_, .i32⟩
  | .hbm, ⟨14, _⟩ => ⟨S64x512, .i32⟩
  | .hbm, ⟨15, _⟩ => ⟨S64x512, .i32⟩
  | .hbm, ⟨16, _⟩ => ⟨S64x1x512, .i32⟩
  | .hbm, ⟨17, _⟩ => ⟨S64x512x768, .f32⟩
  | .local _ .vmem, ⟨0, _⟩ => ⟨S2x512x768, .f32⟩
  | .local _ .vmem, ⟨1, _⟩ => ⟨S2x512x768, .f32⟩
  | .local _ .vmem, ⟨2, _⟩ => ⟨S2x1x512, .i32⟩
  | .local _ .vmem, ⟨3, _⟩ => ⟨S2x1x512, .i32⟩
  | .local _ .vmem, ⟨4, _⟩ => ⟨S2x512x768, .f32⟩
  | .local _ .vmem, ⟨5, _⟩ => ⟨S2x512x768, .f32⟩
  | _, _ => ⟨S64x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_call0_c : Ref sig .tc := ⟨.hbm, 6, rfl⟩
abbrev main_call0_call0_v0 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_call1_v0 : Ref sig .tc := ⟨.hbm, 13, rfl⟩
abbrev main_call1_v1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S64x512 : S_.BroadcastsInDim S64x512 (![] : Fin 0 → Fin S64x512.rank)
  natLt_1_32 : 1 < 32
  bcast_S_S_ : S_.BroadcastsInDim S_ (![] : Fin 0 → Fin S_.rank)
  reduceWindows_S64x512_S64x512_w1s1p0_0_w512s1p511_0 : S64x512.ReduceWindows (![1, 512] : Fin 2 → Nat) ![1, 1] ![0, 511] ![0, 0] S64x512
  h_S_ : 0 < S_.numel
  bcast_S64x512_S64x1x512_0_2 : S64x512.BroadcastsInDim S64x1x512 (![0, 2] : Fin 2 → Fin S64x1x512.rank)
  inb_S2x1x512_S2x1x512_0_0_0 : ∀ a, (![0, 0, 0] : Fin 3 → Nat) a + S2x1x512.size a ≤ S2x1x512.size a
  h_S2x1x512 : 0 < S2x1x512.numel
  shapeCasts_S2x1x512_S2x512 : S2x1x512.ShapeCasts S2x512
  iota_S1x512x512_d1_w32 : S1x512x512.Iotas .tc 32 [1]
  shapeCasts_S2x512_S2x1x512 : S2x512.ShapeCasts S2x1x512
  broadcasts_S1x512x512_S2x512x512 : S1x512x512.Broadcasts S2x512x512
  broadcasts_S2x1x512_S2x512x512 : S2x1x512.Broadcasts S2x512x512
  bitsLt_bf16_f32 : FTy.bits .bf16 < FTy.bits .f32
  inb_S2x512x768_S2x512x768_0_0_0 : ∀ a, (![0, 0, 0] : Fin 3 → Nat) a + S2x512x768.size a ≤ S2x512x768.size a
  h_S2x512x768 : 0 < S2x512x768.numel
  dot_S2x512x512_S2x512x768_S2x512x768_2_1_1_2_0_0_wf : DotDims.WF S2x512x512 S2x512x768 S2x512x768 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x768.size a ≤ S64x512x768.size a
  hwx0_0 : ∀ i : grid0.Coords, EltTy.bits .f32 = 32 ∨ (Rect.block (s := S64x512x768) S2x512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x512.size a ≤ S64x1x512.size a
  hwx0_1 : ∀ i : grid0.Coords, EltTy.bits .i32 = 32 ∨ (Rect.block (s := S64x1x512) S2x1x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512x768.size a ≤ S64x512x768.size a
  hwx0_2 : ∀ i : grid0.Coords, EltTy.bits .f32 = 32 ∨ (Rect.block (s := S64x512x768) S2x512x768.size (cc0_transform_2 i) (hinb0_2 i)).WholeWords (EltTy.packing .f32)

variable [Facts₀]

def dot_S2x512x512_S2x512x768_S2x512x768_2_1_1_2_0_0 : DotDims S2x512x512 S2x512x768 S2x512x768 where
  lhsContracting := [2]
  rhsContracting := [1]
  lhsNonContracting := [1]
  rhsNonContracting := [2]
  lhsBatch := [0]
  rhsBatch := [0]
  wf := dot_S2x512x512_S2x512x768_S2x512x768_2_1_1_2_0_0_wf

abbrev win0_0 : Pipeline.Window sig grid0 :=
  Pipeline.Window.ofSpec (Memref.whole main_arg0) S2x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2x512x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x512x768 : Shape := ⟨3, ![64, 512, 768]⟩
abbrev S64x512 : Shape := ⟨2, ![64, 512]⟩
abbrev S_ : Shape := ⟨0, ![]⟩
abbrev S64 : Shape := ⟨1, ![64]⟩
abbrev S64x1 : Shape := ⟨2, ![64, 1]⟩
abbrev S64x513x768 : Shape := ⟨3, ![64, 513, 768]⟩
abbrev S64x512x1 : Shape := ⟨3, ![64, 512, 1]⟩
abbrev S64x512x2 : Shape := ⟨3, ![64, 512, 2]⟩

abbrev nBuf : Space → Nat
  | .hbm => 40
  | .vmem => 0
  | .smem => 0
  | _ => 0

abbrev bufTy : (tb : Table) → Fin (tcTables nBuf tb) → BufTy
  | .hbm, ⟨0, _⟩ => ⟨S64x512x768, .f32⟩
  | .hbm, ⟨1, _⟩ => ⟨S64x512, .i32⟩
  | .hbm, ⟨2, _⟩ => ⟨S_, .i32⟩
  | .hbm, ⟨3, _⟩ => ⟨S64x512, .i32⟩
  | .hbm, ⟨4, _⟩ => ⟨S64x512, .i1⟩
  | .hbm, ⟨5, _⟩ => ⟨S64x512, .i32⟩
  | .hbm, ⟨6, _⟩ => ⟨S_, .i32⟩
  | .hbm, ⟨7, _⟩ => ⟨S_, .i32⟩
  | .hbm, ⟨8, _⟩ => ⟨S64x512, .i32⟩
  | .hbm, ⟨9, _⟩ => ⟨S_, .i32⟩
  | .hbm, ⟨10, _⟩ => ⟨S64x512, .i32⟩
  | .hbm, ⟨11, _⟩ => ⟨S64x512, .i32⟩
  | .hbm, ⟨12, _⟩ => ⟨S_, .i32⟩
  | .hbm, ⟨13, _⟩ => ⟨S_, .i32⟩
  | .hbm, ⟨14, _⟩ => ⟨S64x512, .i32⟩
  | .hbm, ⟨15, _⟩ => ⟨S64x512, .i32⟩
  | .hbm, ⟨16, _⟩ => ⟨S64, .i32⟩
  | .hbm, ⟨17, _⟩ => ⟨S64x1, .i32⟩
  | .hbm, ⟨18, _⟩ => ⟨S_, .f32⟩
  | .hbm, ⟨19, _⟩ => ⟨S64x513x768, .f32⟩
  | .hbm, ⟨20, _⟩ => ⟨S_, .i32⟩
  | .hbm, ⟨21, _⟩ => ⟨S64x1, .i32⟩
  | .hbm, ⟨22, _⟩ => ⟨S64x1, .i1⟩
  | .hbm, ⟨23, _⟩ => ⟨S_, .i32⟩
  | .hbm, ⟨24, _⟩ => ⟨S64x1, .i32⟩
  | .hbm, ⟨25, _⟩ => ⟨S64x1, .i32⟩
  | .hbm, ⟨26, _⟩ => ⟨S64x1, .i32⟩
  | .hbm, ⟨27, _⟩ => ⟨S_, .i32⟩
  | .hbm, ⟨28, _⟩ => ⟨S64x512, .i32⟩
  | .hbm, ⟨29, _⟩ => ⟨S64x512, .i1⟩
  | .hbm, ⟨30, _⟩ => ⟨S_, .i32⟩
  | .hbm, ⟨31, _⟩ => ⟨S64x512, .i32⟩
  | .hbm, ⟨32, _⟩ => ⟨S64x512, .i32⟩
  | .hbm, ⟨33, _⟩ => ⟨S64x512, .i32⟩
  | .hbm, ⟨34, _⟩ => ⟨S64x512, .i32⟩
  | .hbm, ⟨35, _⟩ => ⟨S64x512x1, .i32⟩
  | .hbm, ⟨36, _⟩ => ⟨S64x512x1, .i32⟩
  | .hbm, ⟨37, _⟩ => ⟨S64x512x2, .i32⟩
  | .hbm, ⟨38, _⟩ => ⟨S64x513x768, .f32⟩
  | .hbm, ⟨39, _⟩ => ⟨S64x512x768, .f32⟩
  | _, _ => ⟨S64x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_call0_c : Ref sig .tc := ⟨.hbm, 6, rfl⟩
abbrev main_call0_call0_v0 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_call1_v0 : Ref sig .tc := ⟨.hbm, 13, rfl⟩
abbrev main_call1_v1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_v15 : Ref sig .tc := ⟨.hbm, 28, rfl⟩
abbrev main_v16 : Ref sig .tc := ⟨.hbm, 29, rfl⟩
abbrev main_c_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S_S64x512 : S_.BroadcastsInDim S64x512 (![] : Fin 0 → Fin S64x512.rank)
  natLt_1_32 : 1 < 32
  bcast_S_S_ : S_.BroadcastsInDim S_ (![] : Fin 0 → Fin S_.rank)
  reduceWindows_S64x512_S64x512_w1s1p0_0_w512s1p511_0 : S64x512.ReduceWindows (![1, 512] : Fin 2 → Nat) ![1, 1] ![0, 511] ![0, 0] S64x512
  h_S_ : 0 < S_.numel
  bcast_S64_S64x1_0 : S64.BroadcastsInDim S64x1 (![0] : Fin 1 → Fin S64x1.rank)
  bcast_S_S64x513x768 : S_.BroadcastsInDim S64x513x768 (![] : Fin 0 → Fin S64x513x768.rank)
  bcast_S_S64x1 : S_.BroadcastsInDim S64x1 (![] : Fin 0 → Fin S64x1.rank)
  bcast_S64x1_S64x512_0_1 : S64x1.BroadcastsInDim S64x512 (![0, 1] : Fin 2 → Fin S64x512.rank)
  bcast_S64x512_S64x512x1_0_1 : S64x512.BroadcastsInDim S64x512x1 (![0, 1] : Fin 2 → Fin S64x512x1.rank)
  concatenates_S64x512x1_S64x512x1_S64x512x2_d2 : Shape.Concatenates [S64x512x1, S64x512x1] S64x512x2 2
  slices_S64x513x768_S64x512x768_0_0_0 : S64x513x768.Slices ![0, 0, 0] S64x512x768
  scatter_S64x513x768_S64x512x2_S64x512x768_2_01_01_2_wf : ScatterDims.WF S64x513x768 S64x512x2 S64x512x768 [2] [0, 1] [0, 1] 2

variable [Facts₀]

def scatter_S64x513x768_S64x512x2_S64x512x768_2_01_01_2 : ScatterDims S64x513x768 S64x512x2 S64x512x768 where
  updateWindowDims := [2]
  insertedWindowDims := [0, 1]
  scatterDimsToOperandDims := [0, 1]
  indexVectorDim := 2
  wf := scatter_S64x513x768_S64x512x2_S64x512x768_2_01_01_2_wf

class Facts : Prop extends Facts₀ where

variable [Facts]
-- ==== Proof.FiniteInputs.lean ====
/-
  From the precondition to real entries. The precondition states that every entry `x` of the float argument has
  `|x| < +∞`, as one conjunction over all the entries. Read back at one entry it says `max x (-x) < ⊤` in the
  extended reals, which rules out both infinities: the entry is a real number.
-/
import proofs.«177381_j41016937677038_2_alg».proof.Proof.Gen.Pre_finite_inputs
import Idealize.ShloMosaic.Lib.ReduceAll
import Idealize.ShloMosaic.Lib.ValueIdx
import Idealize.ShloMosaic.Lib.IdealHost
import Idealize.ShloMosaic.PureOps.Ideal.Laws

open Idealize.ShloMosaic Idealize.ShloMosaic.ValueIdx

namespace Cert.Compaction

noncomputable section

/-- The f32 pattern of positive infinity is the top extended real. -/
private theorem ofBits_inf_f32 : Ideal.ofBits .f32 0x7F800000#32 = (⊤ : EReal) := by
  simp [Ideal.ofBits, Ideal.ieee]

/-- An extended real whose absolute value is below infinity is a real number. -/
private theorem real_of_abs_lt_top (x : EReal) (hx : max x (-x) < ⊤) : ∃ r : ℝ, x = (r : EReal) := by
  induction x using EReal.rec with
  | bot => simp at hx
  | coe r => exact ⟨r, rfl⟩
  | top => simp at hx

theorem real_of_pre (a0 : FVec Ideal Cert.Pre_finite_inputs.S64x512x768 .f32) (a1 : IVec Cert.Pre_finite_inputs.S64x512 32)
    (h : Cert.Pre_finite_inputs.fn (F := Ideal) a0 a1 = (fun _ => 1#1)) (k : Cert.Pre_finite_inputs.S64x512x768.Idx) :
    ∃ r : ℝ, a0 k = (r : EReal) := by
  have h0 := congrFun h ValueIdx.ix0
  dsimp only [Cert.Pre_finite_inputs.fn] at h0
  haveI : Subsingleton Cert.Pre_finite_inputs.S_.Idx := ⟨fun a b => funext fun d => d.elim0⟩
  have hk := Host.reduce_andi_all _ _ _ _ _ h0 k
  rw [cmpf_apply, broadcastInDim_scalar_apply, constant_apply, ofBits_inf_f32] at hk
  have hlt : max (a0 k) (-(a0 k)) < (⊤ : EReal) := by
    by_contra hn
    have h0' : FloatOps.cmpf (F := Ideal) (φ := .f32) .olt (Host.absf a0 k) (⊤ : EReal) = 0#1 := by
      show BitVec.ofBool (decide (max (a0 k) (-(a0 k)) < ⊤)) = 0#1
      rw [decide_eq_false hn]; rfl
    rw [h0'] at hk
    exact absurd hk (by decide)
  exact real_of_abs_lt_top _ hlt

end

end Cert.Compaction
-- ==== Proof.BodyAt.lean ====
/-
  The kernel body's arithmetic at one element.

  For one block of two batch entries, the body builds the 0/1 matrix M[b, j, i] = 1 when the destination word of
  token i in entry b is the row number j, multiplies it (contracting the token axis i) once with the block x and once
  with the difference x - x, and adds the two products. Read at (b, j, d), each product is a plain sum over the 512
  tokens of M[b, j, i] times the right factor at (b, i, d).
-/
import proofs.«177381_j41016937677038_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Compaction

open Cert.KernelIdeal Idealize.ShloMosaic Idealize.ShloMosaic.ValueIdx Cert.KernelIdeal.Facts₀
open scoped BigOperators

/-- The 0/1 entry: the comparison bit of "row number j equals the destination word w", widened and read as a real. -/
def oneHot (w : BitVec 32) (j : Fin 512) : EReal :=
  ((((IntOp.cmpi .eq (BitVec.ofNat 32 j.val) w).setWidth 32).toInt : ℝ) : EReal)

theorem oneHot_eq (w : BitVec 32) (j : Fin 512) : oneHot w j = if w = BitVec.ofNat 32 j.val then 1 else 0 := by
  unfold oneHot IntOp.cmpi
  by_cases h : w = BitVec.ofNat 32 j.val
  · subst h; simp
  · have hb : (BitVec.ofNat 32 j.val == w) = false := by
      simpa using fun e : BitVec.ofNat 32 j.val = w => h e.symm
    simp [h, hb]

/-- The dimension numbers of the body's two products: batch axis 0, the left factor's axis 2 contracted with the right
    factor's axis 1. -/
abbrev D := dot_S2x512x512_S2x512x768_S2x512x768_2_1_1_2_0_0

theorem D_rank : D.contr.rank = 1 := rfl
theorem D_size : D.contr.size ⟨0, by rw [D_rank]; exact Nat.one_pos⟩ = 512 := rfl

/-- The left factor is read at (b, j, i), … -/
theorem lhs_at (b : Fin 2) (j : Fin 512) (d : Fin 768) (i : Fin 512) :
    D.lhsIdx (ix3 b j d) ((contrEquiv1 D 512 D_rank D_size).symm i) = ix3 b j i := by
  funext a
  match a with
  | ⟨0, _⟩ => exact Fin.ext rfl
  | ⟨1, _⟩ => exact Fin.ext rfl
  | ⟨2, _⟩ =>
    refine Fin.ext ?_
    exact (DotDims.lhsIdx_val_of_single D (cl := (2 : Fin 3)) rfl _ _).trans (contrEquiv1_symm_val D 512 D_rank D_size i)

/-- … the right factor at (b, i, d). -/
theorem rhs_at (b : Fin 2) (j : Fin 512) (d : Fin 768) (i : Fin 512) :
    D.rhsIdx (ix3 b j d) ((contrEquiv1 D 512 D_rank D_size).symm i) = ix3 b i d := by
  funext a
  match a with
  | ⟨0, _⟩ => exact Fin.ext rfl
  | ⟨1, _⟩ =>
    refine Fin.ext ?_
    exact (DotDims.rhsIdx_val_of_single D (cr := (1 : Fin 3)) rfl _ _).trans (contrEquiv1_symm_val D 512 D_rank D_size i)
  | ⟨2, _⟩ => exact Fin.ext rfl

/-- A product into the zero accumulator, at one element: the sum over the tokens. -/
theorem product_at (L : FVec Ideal S2x512x512 .bf16) (R : FVec Ideal S2x512x768 .bf16) (b : Fin 2) (j : Fin 512) (d : Fin 768) :
    matmul D none L R (constant S2x512x768 .f32 0x00000000#32) (ix3 b j d) = ∑ i : Fin 512, L (ix3 b j i) * R (ix3 b i d) := by
  refine (Ideal.matmul_constant_zero_apply D none L R (ix3 b j d)).trans ?_
  rw [← Equiv.sum_comp (contrEquiv1 D 512 D_rank D_size).symm]
  refine Finset.sum_congr rfl fun i _ => ?_
  rw [lhs_at, rhs_at]

/-- The 0/1 matrix at (b, j, i): the row number j against token i's destination word. -/
theorem matrix_at (v0 : Vec Ideal S2x1x512 .i32) (b : Fin 2) (j : Fin 512) (i : Fin 512) :
    (truncf .bf16 (sitofp .f32 (extui 32 (cmpi .eq
        (broadcastTo S2x512x512 (iota .tc S1x512x512 32 [1] iota_S1x512x512_d1_w32) broadcasts_S1x512x512_S2x512x512)
        (broadcastTo S2x512x512 (shapeCast S2x1x512 (shapeCast S2x512 v0 shapeCasts_S2x1x512_S2x512) shapeCasts_S2x512_S2x1x512)
          broadcasts_S2x1x512_S2x512x512)) natLt_1_32) : FVec Ideal S2x512x512 .f32) bitsLt_bf16_f32 : FVec Ideal S2x512x512 .bf16)
      (ix3 b j i) = oneHot (v0 (ix3 b 0 i)) j := by
  have e1 : broadcastTo S2x512x512 (iota .tc S1x512x512 32 [1] iota_S1x512x512_d1_w32) broadcasts_S1x512x512_S2x512x512 (ix3 b j i)
      = BitVec.ofNat 32 j.val := by
    refine (broadcastTo_apply _ _ (ix3 b j i) (ix3 (0 : Fin 1) j i) (fun a => by
      match a with | ⟨0, _⟩ => rfl | ⟨1, _⟩ => rfl | ⟨2, _⟩ => rfl)).trans ?_
    show BitVec.ofNat 32 (0 * 512 + j.val) = _
    rw [Nat.zero_mul, Nat.zero_add]
  have e2 : broadcastTo S2x512x512 (shapeCast S2x1x512 (shapeCast S2x512 v0 shapeCasts_S2x1x512_S2x512) shapeCasts_S2x512_S2x1x512)
      broadcasts_S2x1x512_S2x512x512 (ix3 b j i) = v0 (ix3 b 0 i) := by
    rw [shapeCast_shapeCast]
    exact broadcastTo_apply _ _ (ix3 b j i) (ix3 b (0 : Fin 1) i) (fun a => by
      match a with | ⟨0, _⟩ => rfl | ⟨1, _⟩ => rfl | ⟨2, _⟩ => rfl)
  show ((((IntOp.cmpi .eq _ _).setWidth 32).toInt : ℝ) : EReal) = _
  rw [e1, e2]
  rfl

/-- THE BODY'S RESULT at (b, j, d): the tokens selected by row number j, summed, plus the same selection of x - x. -/
theorem body_at (v0 : Vec Ideal S2x1x512 .i32) (v10 : Vec Ideal S2x512x768 .f32) (b : Fin 2) (j : Fin 512) (d : Fin 768) :
    Gen.k0_pay1 (F := Ideal) v0 v10 (ix3 b j d)
      = (∑ i : Fin 512, oneHot (v0 (ix3 b 0 i)) j * v10 (ix3 b i d))
        + ∑ i : Fin 512, oneHot (v0 (ix3 b 0 i)) j * (v10 (ix3 b i d) - v10 (ix3 b i d)) := by
  unfold Gen.k0_pay1
  dsimp only
  refine (congrArg₂ (· + ·) (product_at _ _ b j d) (product_at _ _ b j d)).trans ?_
  refine congrArg₂ (· + ·) (Finset.sum_congr rfl fun i _ => ?_) (Finset.sum_congr rfl fun i _ => ?_)
  · exact congrArg (· * _) (matrix_at v0 b j i)
  · exact congrArg (· * _) (matrix_at v0 b j i)

end Cert.KernelIdeal.Compaction

end
-- ==== Proof.PrefixCount.lean ====
/-
  Prefix counts of a 0/1 array. A padded sliding-window sum along the last axis of a 64 × 512 array of 32-bit words —
  windows of 512 columns, 511 columns of padding in front, stride one — is at column `i` of row `b` the sum of the
  row's entries in columns `0 … i`. When every entry is `0` or `1` that sum does not wrap (it is at most 512) and is
  the number of ones among those columns (`onesUpTo`). The count is at least one and at most 512 at a column that
  holds a one, and is strictly increasing along the columns that hold a one, so it tells them apart.
-/
import Idealize.ShloMosaic.Lib.ValueIdx
import Mathlib.Data.BitVec
import Mathlib.Algebra.BigOperators.Fin

open Idealize.ShloMosaic Idealize.ShloMosaic.ValueIdx
open scoped BigOperators

namespace Cert.Compaction

noncomputable section

/-- A left fold of word addition is the initial word plus the sum of the list. -/
private theorem foldl_addi_eq_sum {α : Type} (g : α → BitVec 32) (l : List α) (init : BitVec 32) :
    l.foldl (fun r n => IntOp.addi r (g n)) init = init + (l.map g).sum := by
  induction l generalizing init with
  | nil => simp
  | cons a l ih =>
    rw [List.foldl_cons, ih, List.map_cons, List.sum_cons]
    show init + g a + _ = _
    rw [add_assoc]

/-- The term the window at position `w` contributes to the result at `(b, i)`: the operand at column
    `i + w₁ - 511` of row `b` when that column exists, the initial value otherwise. -/
private def winTerm (x : IVec ⟨2, ![64, 512]⟩ 32) (v0 : BitVec 32) (b : Fin 64) (i : Fin 512)
    (w : (⟨2, ![1, 512]⟩ : Shape).Idx) : BitVec 32 :=
  if hin : ∀ a : Fin 2, (![0, 511] : Fin 2 → ℕ) a ≤ (ix2 b i a).val * (![1, 1] : Fin 2 → ℕ) a + (w a).val ∧
      (ix2 b i a).val * (![1, 1] : Fin 2 → ℕ) a + (w a).val - (![0, 511] : Fin 2 → ℕ) a < (![64, 512] : Fin 2 → ℕ) a then
    x fun a => ⟨(ix2 b i a).val * (![1, 1] : Fin 2 → ℕ) a + (w a).val - (![0, 511] : Fin 2 → ℕ) a, (hin a).2⟩
  else v0

/-- The term column `m` contributes to the prefix sum up to column `i`. -/
private def prefTerm (x : IVec ⟨2, ![64, 512]⟩ 32) (b : Fin 64) (i m : Fin 512) : BitVec 32 :=
  if m ≤ i then x (ix2 b m) else 0#32

/-- The rotation `k ↦ k + i + 1` of the residues modulo 512: it carries window position `k` to the column
    `i + k - 511` that position reads, when there is one, and to a column past `i` otherwise. -/
private def rot (i : Fin 512) : Fin 512 ≃ Fin 512 where
  toFun k := ⟨(k.val + i.val + 1) % 512, Nat.mod_lt _ (by omega)⟩
  invFun m := ⟨(m.val + 511 - i.val) % 512, Nat.mod_lt _ (by omega)⟩
  left_inv k := Fin.ext (by
    have := k.isLt; have := i.isLt
    show ((k.val + i.val + 1) % 512 + 511 - i.val) % 512 = k.val
    omega)
  right_inv m := Fin.ext (by
    have := m.isLt; have := i.isLt
    show ((m.val + 511 - i.val) % 512 + i.val + 1) % 512 = m.val
    omega)

private theorem winTerm_eq (x : IVec ⟨2, ![64, 512]⟩ 32) (b : Fin 64) (i k : Fin 512) :
    winTerm x 0#32 b i (ix2 (0 : Fin 1) k) = prefTerm x b i (rot i k) := by
  have hk := k.isLt; have hi := i.isLt; have hb := b.isLt
  unfold winTerm prefTerm
  by_cases hc : 511 ≤ i.val + k.val
  · have hin : ∀ a : Fin 2, (![0, 511] : Fin 2 → ℕ) a ≤ (ix2 b i a).val * (![1, 1] : Fin 2 → ℕ) a + (ix2 (0 : Fin 1) k a).val ∧
        (ix2 b i a).val * (![1, 1] : Fin 2 → ℕ) a + (ix2 (0 : Fin 1) k a).val - (![0, 511] : Fin 2 → ℕ) a < (![64, 512] : Fin 2 → ℕ) a := by
      intro a
      match a with
      | ⟨0, _⟩ => show 0 ≤ b.val * 1 + 0 ∧ b.val * 1 + 0 - 0 < 64; omega
      | ⟨1, _⟩ => show 511 ≤ i.val * 1 + k.val ∧ i.val * 1 + k.val - 511 < 512; omega
    have hle : rot i k ≤ i := by
      show (k.val + i.val + 1) % 512 ≤ i.val
      omega
    rw [dif_pos hin, if_pos hle]
    congr 1
    funext a
    match a with
    | ⟨0, _⟩ => exact Fin.ext (show b.val * 1 + 0 - 0 = b.val by omega)
    | ⟨1, _⟩ => exact Fin.ext (show i.val * 1 + k.val - 511 = (k.val + i.val + 1) % 512 by omega)
  · have hnin : ¬ ∀ a : Fin 2, (![0, 511] : Fin 2 → ℕ) a ≤ (ix2 b i a).val * (![1, 1] : Fin 2 → ℕ) a + (ix2 (0 : Fin 1) k a).val ∧
        (ix2 b i a).val * (![1, 1] : Fin 2 → ℕ) a + (ix2 (0 : Fin 1) k a).val - (![0, 511] : Fin 2 → ℕ) a < (![64, 512] : Fin 2 → ℕ) a := by
      intro hall
      have h1 : 511 ≤ i.val * 1 + k.val := (hall ⟨1, Nat.one_lt_two⟩).1
      omega
    have hnle : ¬ rot i k ≤ i := by
      show ¬ (k.val + i.val + 1) % 512 ≤ i.val
      omega
    rw [dif_neg hnin, if_neg hnle]

/-- The window sum at `(b, i)` is the sum of the row's entries up to column `i`. -/
private theorem windowSum_eq_sum (x : IVec ⟨2, ![64, 512]⟩ 32) (v : IVec ⟨0, ![]⟩ 32)
    (h : (⟨2, ![64, 512]⟩ : Shape).ReduceWindows (![1, 512] : Fin 2 → Nat) ![1, 1] ![0, 511] ![0, 0] ⟨2, ![64, 512]⟩)
    (hu : 0 < (⟨0, ![]⟩ : Shape).numel) (hv : v (Shape.Idx.first hu) = 0#32) (b : Fin 64) (i : Fin 512) :
    Host.reduceWindow IntOp.addi ![1, 512] ![1, 1] ![0, 511] ![0, 0] x v h hu (ix2 b i) = ∑ m : Fin 512, prefTerm x b i m := by
  unfold Host.reduceWindow
  simp only []
  rw [foldl_addi_eq_sum, ← Fin.sum_univ_def, hv, BitVec.zero_add]
  refine (Fintype.sum_equiv (⟨2, ![1, 512]⟩ : Shape).rowMajor.symm _ (winTerm x 0#32 b i) (fun n => rfl)).trans ?_
  rw [sum_idx2, Fin.sum_univ_one]
  rw [← Equiv.sum_comp (rot i) (prefTerm x b i)]
  exact Finset.sum_congr rfl fun k _ => winTerm_eq x b i k

/-- A sum of words each `0` or `1` is the number of the ones, as a word. -/
private theorem sum_zero_one_eq_card {ι : Type} [DecidableEq ι] (S : Finset ι) (f : ι → BitVec 32)
    (hf : ∀ k, f k = 0#32 ∨ f k = 1#32) :
    ∑ k ∈ S, f k = BitVec.ofNat 32 (S.filter fun k => f k = 1#32).card := by
  induction S using Finset.induction_on with
  | empty => rfl
  | insert a S ha ih =>
    rw [Finset.sum_insert ha, ih, Finset.filter_insert]
    rcases hf a with h0 | h1
    · have hne : ¬ f a = 1#32 := by rw [h0]; decide
      rw [if_neg hne, h0, BitVec.zero_add]
    · rw [if_pos h1, Finset.card_insert_of_notMem (fun hm => ha (Finset.mem_filter.1 hm).1), h1,
        BitVec.ofNat_add, BitVec.add_comm]

/-- The number of ones among x(b,0..i). -/
def onesUpTo (x : IVec ⟨2, ![64, 512]⟩ 32) (b : Fin 64) (i : Fin 512) : ℕ :=
  (Finset.univ.filter fun k : Fin 512 => k ≤ i ∧ x (ix2 b k) = 1#32).card

/-- A count of columns is at most the number of columns. -/
private theorem onesUpTo_le (x : IVec ⟨2, ![64, 512]⟩ 32) (b : Fin 64) (i : Fin 512) : onesUpTo x b i ≤ 512 := by
  unfold onesUpTo
  refine (Finset.card_filter_le _ _).trans ?_
  rw [Finset.card_univ, Fintype.card_fin]

theorem windowSum_toNat (x : IVec ⟨2, ![64, 512]⟩ 32) (v : IVec ⟨0, ![]⟩ 32)
    (h : (⟨2, ![64, 512]⟩ : Shape).ReduceWindows (![1, 512] : Fin 2 → Nat) ![1, 1] ![0, 511] ![0, 0] ⟨2, ![64, 512]⟩)
    (hu : 0 < (⟨0, ![]⟩ : Shape).numel) (hv : v (Shape.Idx.first hu) = 0#32)
    (hx : ∀ j, x j = 0#32 ∨ x j = 1#32) (b : Fin 64) (i : Fin 512) :
    (Host.reduceWindow IntOp.addi ![1, 512] ![1, 1] ![0, 511] ![0, 0] x v h hu (ix2 b i)).toNat = onesUpTo x b i := by
  have h01 : ∀ m : Fin 512, prefTerm x b i m = 0#32 ∨ prefTerm x b i m = 1#32 := by
    intro m
    unfold prefTerm
    by_cases hm : m ≤ i
    · rw [if_pos hm]; exact hx _
    · rw [if_neg hm]; exact Or.inl rfl
  have hset : (Finset.univ.filter fun m : Fin 512 => prefTerm x b i m = 1#32)
      = Finset.univ.filter fun k : Fin 512 => k ≤ i ∧ x (ix2 b k) = 1#32 := by
    refine Finset.filter_congr fun m _ => ?_
    unfold prefTerm
    by_cases hm : m ≤ i
    · rw [if_pos hm]; exact ⟨fun e => ⟨hm, e⟩, fun e => e.2⟩
    · rw [if_neg hm]; exact ⟨fun e => absurd e (by decide), fun e => absurd e.1 hm⟩
  rw [windowSum_eq_sum x v h hu hv b i, sum_zero_one_eq_card Finset.univ (prefTerm x b i) h01, hset, BitVec.toNat_ofNat]
  have hle := onesUpTo_le x b i
  unfold onesUpTo at hle ⊢
  exact Nat.mod_eq_of_lt (by omega)

/-- Past a column holding a one the count is strictly larger than at any earlier column. -/
private theorem onesUpTo_lt (x : IVec ⟨2, ![64, 512]⟩ 32) (b : Fin 64) (i i' : Fin 512) (hlt : i < i')
    (hi' : x (ix2 b i') = 1#32) : onesUpTo x b i < onesUpTo x b i' := by
  unfold onesUpTo
  refine Finset.card_lt_card (Finset.ssubset_iff_of_subset ?_ |>.2 ⟨i', ?_, ?_⟩)
  · intro k hk
    rw [Finset.mem_filter] at hk ⊢
    exact ⟨hk.1, le_trans hk.2.1 (le_of_lt hlt), hk.2.2⟩
  · exact Finset.mem_filter.2 ⟨Finset.mem_univ _, le_refl _, hi'⟩
  · intro hk
    exact absurd (Finset.mem_filter.1 hk).2.1 (not_le_of_gt hlt)

theorem onesUpTo_pos_le (x : IVec ⟨2, ![64, 512]⟩ 32) (b : Fin 64) (i : Fin 512) (hi : x (ix2 b i) = 1#32) :
    1 ≤ onesUpTo x b i ∧ onesUpTo x b i ≤ 512 := by
  refine ⟨?_, onesUpTo_le x b i⟩
  unfold onesUpTo
  exact Finset.card_pos.2 ⟨i, Finset.mem_filter.2 ⟨Finset.mem_univ _, le_refl _, hi⟩⟩

theorem onesUpTo_inj (x : IVec ⟨2, ![64, 512]⟩ 32) (b : Fin 64) (i i' : Fin 512) (hi : x (ix2 b i) = 1#32) (hi' : x (ix2 b i') = 1#32)
    (he : onesUpTo x b i = onesUpTo x b i') : i = i' := by
  rcases lt_trichotomy i i' with hlt | heq | hgt
  · exact absurd he (Nat.ne_of_lt (onesUpTo_lt x b i i' hlt hi'))
  · exact heq
  · exact absurd he.symm (Nat.ne_of_lt (onesUpTo_lt x b i' i hgt hi))

end

end Cert.Compaction
-- ==== Proof.Compact.lean ====
/-
  Row compaction, stated once for both programs.

  A token (b, i) is valid when the id array holds 1 there. Its running count c(b, i) is the number of valid tokens
  among (b, 0..i); a valid token's destination row is c(b, i) - 1, so the valid tokens of a row go, in order, to rows
  0, 1, 2, …, and two valid tokens never share a row. Token (b, i) HITS row j when it is valid and c(b, i) = j + 1.
  The compacted array holds at (b, j, d) the sum over the tokens hitting row j of x(b, i, d): one term, or none (zero).

  One program marks an invalid token with the word -1, which is no row number; the other sends it to the extra row
  512 of a taller array. Both facts are read off the words here.
-/
import proofs.«177381_j41016937677038_2_alg».proof.Proof.PrefixCount

noncomputable section

namespace Cert.Compaction

open Idealize.ShloMosaic Idealize.ShloMosaic.ValueIdx
open scoped BigOperators

abbrev B0 : Shape := ⟨0, ![]⟩
abbrev B2 : Shape := ⟨2, ![64, 512]⟩
abbrev B3 : Shape := ⟨3, ![64, 512, 768]⟩

theorem window_ok : B2.ReduceWindows (![1, 512] : Fin 2 → Nat) ![1, 1] ![0, 511] ![0, 0] B2 := by decide
theorem scalar_ok : 0 < B0.numel := by decide

/-- The 0/1 indicator of validity, as 32-bit words. -/
def ind (a1 : IVec B2 32) : IVec B2 32 := fun k => (IntOp.cmpi .eq (a1 k) 1#32).setWidth 32

/-- The running count of valid tokens along each row, as the programs compute it (a padded sliding-window sum). -/
def runCount (a1 : IVec B2 32) : IVec B2 32 :=
  Host.reduceWindow IntOp.addi ![1, 512] ![1, 1] ![0, 511] ![0, 0] (ind a1) (fun _ : B0.Idx => 0#32) window_ok scalar_ok

/-- The running count minus one: a valid token's destination row. -/
def pos (a1 : IVec B2 32) : IVec B2 32 := fun k => IntOp.subi (runCount a1 k) 1#32

/-- The destination word with invalid tokens marked -1. -/
def destNeg (a1 : IVec B2 32) : IVec B2 32 := fun k => Scalar.select (IntOp.cmpi .eq (a1 k) 1#32) (pos a1 k) 4294967295#32

/-- The destination word with invalid tokens sent to row 512. -/
def destDump (a1 : IVec B2 32) : IVec B2 32 := fun k => Scalar.select (IntOp.cmpi .eq (a1 k) 1#32) (pos a1 k) 512#32

/-- A word read as a row number of a 513-row array, a negative one wrapped once. -/
def wrap513 (x : BitVec 32) : BitVec 32 := Scalar.select (IntOp.cmpi .slt x 0#32) (IntOp.addi x 513#32) x

/-- Token (b, i) hits row j. -/
def Hit (a1 : IVec B2 32) (b : Fin 64) (i j : Fin 512) : Prop :=
  a1 (ix2 b i) = 1#32 ∧ onesUpTo (ind a1) b i = j.val + 1

instance (a1 : IVec B2 32) (b : Fin 64) (i j : Fin 512) : Decidable (Hit a1 b i j) :=
  inferInstanceAs (Decidable (_ ∧ _))

/-- The compacted element at (b, j, d): the rows of the tokens hitting row j, summed. -/
def compactAt (a0 : B3.Idx → EReal) (a1 : IVec B2 32) (b : Fin 64) (j : Fin 512) (d : Fin 768) : EReal :=
  ∑ i : Fin 512, if Hit a1 b i j then a0 (ix3 b i d) else 0

/-- THE COMPACTED ARRAY. -/
def compact (a0 : B3.Idx → EReal) (a1 : IVec B2 32) : B3.Idx → EReal :=
  fun k => compactAt a0 a1 (k 0) (k 1) (k 2)

theorem compact_apply (a0 : B3.Idx → EReal) (a1 : IVec B2 32) (b : Fin 64) (j : Fin 512) (d : Fin 768) :
    compact a0 a1 (ix3 b j d) = ∑ i : Fin 512, if Hit a1 b i j then a0 (ix3 b i d) else 0 := rfl

/-! ## The validity bit and the indicator -/

theorem cmp_eq_one (w : BitVec 32) : IntOp.cmpi .eq w 1#32 = 1#1 ↔ w = 1#32 := by
  unfold IntOp.cmpi
  by_cases h : w = 1#32
  · simp [h]
  · have hb : (w == 1#32) = false := by simpa using h
    simp [h, hb]

theorem select_valid {α : Type} (w : BitVec 32) (h : w = 1#32) (x y : α) : Scalar.select (IntOp.cmpi .eq w 1#32) x y = x :=
  if_pos ((cmp_eq_one w).2 h)

theorem select_invalid {α : Type} (w : BitVec 32) (h : ¬ w = 1#32) (x y : α) : Scalar.select (IntOp.cmpi .eq w 1#32) x y = y :=
  if_neg (fun e => h ((cmp_eq_one w).1 e))

theorem ind_of_valid (a1 : IVec B2 32) (k : B2.Idx) (h : a1 k = 1#32) : ind a1 k = 1#32 := by
  unfold ind
  rw [(cmp_eq_one _).2 h]
  rfl

theorem ind_of_invalid (a1 : IVec B2 32) (k : B2.Idx) (h : ¬ a1 k = 1#32) : ind a1 k = 0#32 := by
  unfold ind
  have : IntOp.cmpi .eq (a1 k) 1#32 = 0#1 := eq_zero_of_ne_one (fun e => h ((cmp_eq_one _).1 e))
  rw [this]
  rfl

theorem ind_cases (a1 : IVec B2 32) (k : B2.Idx) : ind a1 k = 0#32 ∨ ind a1 k = 1#32 := by
  by_cases h : a1 k = 1#32
  · exact Or.inr (ind_of_valid a1 k h)
  · exact Or.inl (ind_of_invalid a1 k h)

/-! ## The running count and the destination words -/

theorem runCount_toNat (a1 : IVec B2 32) (b : Fin 64) (i : Fin 512) : (runCount a1 (ix2 b i)).toNat = onesUpTo (ind a1) b i :=
  windowSum_toNat (ind a1) (fun _ => 0#32) window_ok scalar_ok rfl (ind_cases a1) b i

/-- A valid token's destination word is a row number below 512: its count minus one. -/
theorem pos_toNat (a1 : IVec B2 32) (b : Fin 64) (i : Fin 512) (h : a1 (ix2 b i) = 1#32) :
    (pos a1 (ix2 b i)).toNat + 1 = onesUpTo (ind a1) b i ∧ (pos a1 (ix2 b i)).toNat < 512 := by
  have hc := runCount_toNat a1 b i
  obtain ⟨h1, h2⟩ := onesUpTo_pos_le (ind a1) b i (ind_of_valid a1 _ h)
  have : (pos a1 (ix2 b i)).toNat = (runCount a1 (ix2 b i)).toNat - 1 := by
    unfold pos IntOp.subi
    rw [BitVec.toNat_sub]
    simp only [BitVec.toNat_ofNat]
    omega
  omega

/-- With invalid tokens marked -1, the destination word is the row number j exactly for the tokens hitting row j. -/
theorem destNeg_eq_iff (a1 : IVec B2 32) (b : Fin 64) (i j : Fin 512) :
    destNeg a1 (ix2 b i) = BitVec.ofNat 32 j.val ↔ Hit a1 b i j := by
  unfold destNeg Hit
  by_cases h : a1 (ix2 b i) = 1#32
  · rw [select_valid _ h]
    obtain ⟨hp, hlt⟩ := pos_toNat a1 b i h
    have hj : j.val < 512 := j.isLt
    constructor
    · intro e
      refine ⟨h, ?_⟩
      have := congrArg BitVec.toNat e
      simp only [BitVec.toNat_ofNat] at this
      omega
    · rintro ⟨-, e⟩
      apply BitVec.eq_of_toNat_eq
      simp only [BitVec.toNat_ofNat]
      omega
  · rw [select_invalid _ h]
    constructor
    · intro e
      have := congrArg BitVec.toNat e
      have hj : j.val < 512 := j.isLt
      simp only [BitVec.toNat_ofNat] at this
      omega
    · rintro ⟨hv, -⟩
      exact absurd hv h

/-- With invalid tokens sent to row 512, the wrapped destination word read as a signed row number: the count minus one
    for a valid token, 512 for an invalid one. -/
theorem wrap_destDump_toInt (a1 : IVec B2 32) (b : Fin 64) (i : Fin 512) :
    (wrap513 (destDump a1 (ix2 b i))).toInt
      = if a1 (ix2 b i) = 1#32 then ((onesUpTo (ind a1) b i - 1 : ℕ) : ℤ) else 512 := by
  have key : ∀ x : BitVec 32, x.toNat < 513 → (wrap513 x).toInt = (x.toNat : ℤ) := by
    intro x hx
    have hi : x.toInt = (x.toNat : ℤ) := by
      rw [BitVec.toInt_eq_toNat_cond]
      split
      · rfl
      · omega
    have hs : IntOp.cmpi .slt x 0#32 = 0#1 := by
      unfold IntOp.cmpi
      have : x.slt 0#32 = false := by
        rw [BitVec.slt_eq_decide]
        simp only [hi, BitVec.toInt_zero]
        exact decide_eq_false (by omega)
      simp [this]
    unfold wrap513
    rw [hs, select_zero]
    exact hi
  unfold destDump
  by_cases h : a1 (ix2 b i) = 1#32
  · rw [select_valid _ h, if_pos h]
    obtain ⟨hp, hlt⟩ := pos_toNat a1 b i h
    rw [key _ (by omega)]
    congr 1
    omega
  · rw [select_invalid _ h, if_neg h]
    rw [key _ (by decide)]
    rfl

/-- Two valid tokens of one row with one count are one token. -/
theorem hit_unique (a1 : IVec B2 32) (b : Fin 64) (i i' j : Fin 512) (h : Hit a1 b i j) (h' : Hit a1 b i' j) : i = i' :=
  onesUpTo_inj (ind a1) b i i' (ind_of_valid a1 _ h.1) (ind_of_valid a1 _ h'.1) (h.2.trans h'.2.symm)

/-- At most one token hits a row, so the compacted element is that token's, or zero. -/
theorem compact_of_hit (a0 : B3.Idx → EReal) (a1 : IVec B2 32) (b : Fin 64) (i j : Fin 512) (d : Fin 768) (h : Hit a1 b i j) :
    compact a0 a1 (ix3 b j d) = a0 (ix3 b i d) := by
  rw [compact_apply, Finset.sum_eq_single i]
  · exact if_pos h
  · intro i' _ hne
    exact if_neg (fun h' => hne (hit_unique a1 b i' i j h' h))
  · intro hni; exact absurd (Finset.mem_univ i) hni

theorem compact_of_no_hit (a0 : B3.Idx → EReal) (a1 : IVec B2 32) (b : Fin 64) (j : Fin 512) (d : Fin 768)
    (h : ∀ i, ¬ Hit a1 b i j) : compact a0 a1 (ix3 b j d) = 0 := by
  rw [compact_apply]
  exact Finset.sum_eq_zero fun i _ => if_neg (h i)

end Cert.Compaction

end
-- ==== Proof.KernelArray.lean ====
/-
  The kernel's result array as one function of its arguments.

  Grid point t handles the two batch entries 2t and 2t+1: it reads their rows of x and their destination words (the
  words with invalid tokens marked -1, which the program computes before the launch), and writes back, at
  (p, j, d) of its block, the selection by row number j computed in the body. Since the destination word equals j
  exactly for the tokens hitting row j, and x - x vanishes on real entries, that is the compacted array's element at
  (2t + p, j, d). The 32 blocks tile the array.
-/
import proofs.«177381_j41016937677038_2_alg».proof.Proof.Gen.KernelIdeal.Value
import proofs.«177381_j41016937677038_2_alg».proof.Proof.BodyAt
import proofs.«177381_j41016937677038_2_alg».proof.Proof.Compact
import Idealize.ShloMosaic.Lib.StableHlo.Run

noncomputable section

namespace Cert.KernelIdeal.Compaction

open Cert.KernelIdeal Cert.KernelIdeal.Gen Idealize.ShloMosaic Idealize.ShloMosaic.TcCoe Idealize.SL.Sem
open Idealize.ShloMosaic.ValueIdx Idealize.ShloMosaic.StableHlo Cert.Compaction
open Idealize.ShloMosaic.Pipeline (Dat)
open scoped BigOperators

variable (m : (ℓ : Loc nD τ sig) → Buf (Elt Ideal) ℓ) (ρ : Dev nD → PrngReg)

theorem zeros3 : (![0, 0, 0] : Fin 3 → Nat) = fun _ => 0 := funext fun a => by fin_cases a <;> rfl

/-- The batch entry that row p of grid point t's block is. -/
def entryOf (t : Fin cfg0.N) (p : Fin 2) : Fin 64 :=
  ⟨2 * t.val + p.val, by have := t.isLt; have hN : cfg0.N = 32 := N_0; have := p.isLt; omega⟩

/-- Each window's block index at point t is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

attribute [local irreducible] Host.reduceWindow in
/-- The destination words as the region finds them: the words with invalid tokens marked -1, with a unit axis inserted. -/
theorem dest_entry (c : Dev nD) :
    (V m c main_v7 : S64x1x512.Idx → BitVec 32)
      = broadcastInDim S64x1x512 ![0, 2] Facts₀.bcast_S64x512_S64x1x512_0_2
          (destNeg (m ((c : Thread nD τ).loc main_arg1))) := by
  dsimp only [V]
  simp only [hostOps0, hostOps0_1, hostOps0_2, hostOps0_3, hostOps0_4, List.flatten_cons, List.flatten_nil, List.append_nil,
    List.cons_append, List.nil_append]
  after_results
  simp only [TRef.toBuf, TRef.ofBuf, cast_eq, id]
  rfl

/-- Grid point t's block of x holds the rows of entries 2t and 2t+1. -/
theorem x_block (c : Dev nD) (t : Fin cfg0.N) (p : Fin 2) (i : Fin 512) (r : Fin 768) :
    iblk m c 0 t (ix3 p i r) = m ((c : Thread nD τ).loc main_arg0) (ix3 (entryOf t p) i r) := by
  show V m c main_arg0 (((cfg0.win 0).blk t).view.emb (ix3 p i r)) = _
  rw [V_main_arg0]
  refine congrArg _ (funext fun a => Fin.ext ?_)
  obtain ⟨e0, e1, e2, -⟩ := idx_facts t
  match a with
  | ⟨0, _⟩ => show win0_0.index t (0 : Fin 3) * 2 + 1 * p.val = 2 * t.val + p.val; omega
  | ⟨1, _⟩ => show win0_0.index t (1 : Fin 3) * 512 + 1 * i.val = i.val; omega
  | ⟨2, _⟩ => show win0_0.index t (2 : Fin 3) * 768 + 1 * r.val = r.val; omega

/-- Grid point t's block of destination words holds those of entries 2t and 2t+1. -/
theorem dest_block (c : Dev nD) (t : Fin cfg0.N) (p : Fin 2) (i : Fin 512) :
    iblk m c 1 t (ix3 p (0 : Fin 1) i) = destNeg (m ((c : Thread nD τ).loc main_arg1)) (ix2 (entryOf t p) i) := by
  show (V m c main_v7 : S64x1x512.Idx → BitVec 32) (((cfg0.win 1).blk t).view.emb (ix3 p (0 : Fin 1) i)) = _
  rw [dest_entry]
  obtain ⟨-, -, -, e0, e1, e2, -⟩ := idx_facts t
  refine broadcastInDim_apply _ _ _ _ (ix2 (entryOf t p) i) (fun a => ?_)
  match a with
  | ⟨0, _⟩ => show 2 * t.val + p.val = win0_1.index t (0 : Fin 3) * 2 + 1 * p.val; omega
  | ⟨1, _⟩ => show i.val = win0_1.index t (2 : Fin 3) * 512 + 1 * i.val; omega

/-- The block's index (p, j, d) at point t is the array's (2t + p, j, d). -/
theorem out_emb (t : Fin cfg0.N) (p : Fin 2) (q : Fin 512) (r : Fin 768) :
    ((cfg0.win 2).blk t).view.emb (ix3 p q r) = ix3 (entryOf t p) q r := by
  obtain ⟨-, -, -, -, -, -, e0, e1, e2⟩ := idx_facts t
  funext a
  apply Fin.ext
  match a with
  | ⟨0, _⟩ => show win0_2.index t (0 : Fin 3) * 2 + 1 * p.val = 2 * t.val + p.val; omega
  | ⟨1, _⟩ => show win0_2.index t (1 : Fin 3) * 512 + 1 * q.val = q.val; omega
  | ⟨2, _⟩ => show win0_2.index t (2 : Fin 3) * 768 + 1 * r.val = r.val; omega

/-- One selected term: the 0/1 entry times the row element is the row element for a token hitting row q, else zero. -/
theorem term_hit (a0 : B3.Idx → EReal) (a1 : IVec B2 32) (b : Fin 64) (i q : Fin 512) (r : Fin 768) :
    oneHot (destNeg a1 (ix2 b i)) q * a0 (ix3 b i r) = if Hit a1 b i q then a0 (ix3 b i r) else 0 := by
  rw [oneHot_eq]
  by_cases h : Hit a1 b i q
  · rw [if_pos ((destNeg_eq_iff a1 b i q).2 h), if_pos h, one_mul]
  · rw [if_neg (fun e => h ((destNeg_eq_iff a1 b i q).1 e)), if_neg h, zero_mul]

/-- A real number minus itself is zero, so the second product contributes nothing. -/
theorem term_zero (w : EReal) (x : EReal) (hx : ∃ r : ℝ, x = (r : EReal)) : w * (x - x) = 0 := by
  obtain ⟨r, rfl⟩ := hx
  rw [← EReal.coe_sub, sub_self, EReal.coe_zero, mul_zero]

/-- The body's result at (p, q, r) of a block whose rows of x are entry e's and whose destination words are entry e's:
    the compacted element at (e, q, r). -/
theorem block_at (a0 : B3.Idx → EReal) (a1 : IVec B2 32) (hfin : ∀ k, ∃ r : ℝ, a0 k = (r : EReal)) (e : Fin 64)
    (p : Fin 2) (q : Fin 512) (r : Fin 768) (x0 : Vec Ideal S2x512x768 .f32) (w : Vec Ideal S2x1x512 .i32)
    (hx : ∀ i : Fin 512, x0 (ix3 p i r) = a0 (ix3 e i r)) (hw : ∀ i : Fin 512, w (ix3 p (0 : Fin 1) i) = destNeg a1 (ix2 e i)) :
    k0_pay1 (F := Ideal) w x0 (ix3 p q r) = ∑ i : Fin 512, if Hit a1 e i q then a0 (ix3 e i r) else 0 := by
  refine (body_at w x0 p q r).trans ?_
  have h2 : (∑ i : Fin 512, oneHot (w (ix3 p (0 : Fin 1) i)) q * (x0 (ix3 p i r) - x0 (ix3 p i r))) = 0 :=
    Finset.sum_eq_zero fun i _ => by
      rw [hx]
      exact term_zero _ _ (hfin _)
  rw [h2, add_zero]
  refine Finset.sum_congr rfl fun i _ => ?_
  rw [hx, hw]
  exact term_hit a0 a1 e i q r

/-- WHAT POINT t WRITES BACK is block t of the compacted array. -/
theorem flushed_eq (c : Dev nD) (hfin : ∀ k, ∃ r : ℝ, m ((c : Thread nD τ).loc main_arg0) k = (r : EReal)) (t : Fin cfg0.N) :
    (dats m 0 c).flushed 2 t = ((cfg0.win 2).blk t).view.read (Elt Ideal)
      (compact (m ((c : Thread nD τ).loc main_arg0)) (m ((c : Thread nD τ).loc main_arg1))) := by
  rw [Cert.KernelIdeal.Value.flushed2]
  unfold out0_2
  rw [View.canon_unit_zero zeros3]
  simp only [View.ld_unit_zero (S := S2x512x768) zeros3, View.ld_unit_zero (S := S2x1x512) zeros3]
  funext y
  obtain ⟨p, q, r, rfl⟩ : ∃ (p : Fin 2) (q : Fin 512) (r : Fin 768), y = ix3 p q r := ⟨y 0, y 1, y 2, eq_ix3 y⟩
  show k0_pay1 (F := Ideal) (iblk m c 1 t) (iblk m c 0 t) (ix3 p q r)
    = compact (m ((c : Thread nD τ).loc main_arg0)) (m ((c : Thread nD τ).loc main_arg1)) (((cfg0.win 2).blk t).view.emb (ix3 p q r))
  rw [out_emb, compact_apply]
  exact block_at _ _ hfin (entryOf t p) p q r (iblk m c 0 t) (iblk m c 1 t) (fun i => x_block m c t p i r)
    (fun i => dest_block m c t p i)

/-- An index of the array is in point t's block iff each coordinate is in the block's range on its axis. -/
theorem mem_blk (t : Fin cfg0.N) (i : S64x512x768.Idx) :
    i ∈ ((cfg0.win 2).blk t).view.set ↔ ∀ a : Fin 3, win0_2.index t a * S2x512x768.size a ≤ (i a).val ∧ (i a).val < win0_2.index t a * S2x512x768.size a + S2x512x768.size a := by
  show i ∈ ((View.whole main_v8).slice (win0_2.rect t)).set ↔ _
  rw [View.set_slice_whole, Rect.mem_set_unit]
  exact Iff.rfl

/-- The 32 blocks cover the array: entry b is in the block of point b / 2. -/
theorem cover (i : S64x512x768.Idx) : ∃ t : Fin cfg0.N, (cfg0.win 2).flush t = true ∧ i ∈ ((cfg0.win 2).blk t).view.set := by
  have hN : cfg0.N = 32 := N_0
  have hi0 : (i 0).val < 64 := (i 0).isLt
  have hi1 : (i 1).val < 512 := (i 1).isLt
  have hi2 : (i 2).val < 768 := (i 2).isLt
  refine ⟨⟨(i 0).val / 2, by omega⟩, flush0_2 _, ?_⟩
  rw [mem_blk]
  obtain ⟨-, -, -, -, -, -, e0, e1, e2⟩ := idx_facts ⟨(i 0).val / 2, by omega⟩
  intro a
  match a with
  | ⟨0, _⟩ =>
    show win0_2.index _ (0 : Fin 3) * 2 ≤ (i 0).val ∧ (i 0).val < win0_2.index _ (0 : Fin 3) * 2 + 2
    rw [e0]; show (i 0).val / 2 * 2 ≤ (i 0).val ∧ (i 0).val < (i 0).val / 2 * 2 + 2; omega
  | ⟨1, _⟩ =>
    show win0_2.index _ (1 : Fin 3) * 512 ≤ (i 1).val ∧ (i 1).val < win0_2.index _ (1 : Fin 3) * 512 + 512
    rw [e1]; omega
  | ⟨2, _⟩ =>
    show win0_2.index _ (2 : Fin 3) * 768 ≤ (i 2).val ∧ (i 2).val < win0_2.index _ (2 : Fin 3) * 768 + 768
    rw [e2]; omega

/-- THE ARRAY after the run is the compacted array. -/
theorem final (c : Dev nD) (hfin : ∀ k, ∃ r : ℝ, m ((c : Thread nD τ).loc main_arg0) k = (r : EReal)) :
    (dats m 0 c).arrAt 2 cfg0.N = compact (m ((c : Thread nD τ).loc main_arg0)) (m ((c : Thread nD τ).loc main_arg1)) :=
  (dats m 0 c).arrAt_eq_of_cover 2 _ (fun t _ => flushed_eq m c hfin t) cover

/-- The kernel's run: its result is the compacted array of its arguments, which it leaves unchanged. -/
theorem run (hfin : ∀ (c : Dev nD) k, ∃ r : ℝ, m ((c : Thread nD τ).loc main_arg0) k = (r : EReal)) :
    θ_run defs (onTc (τ := τ) (main (F := Ideal))) ⟨m, fun _ => 0, ρ⟩ fun r => ∀ c : Dev nD,
      r.2.mem ((c : Thread nD τ).loc main_v8) = compact (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hfin c)), (h c).2⟩) (Cert.KernelIdeal.Value.run_blocks m ρ)

end Cert.KernelIdeal.Compaction

end
-- ==== Proof.RefTerm.lean ====
/-
  The reference program's result as ONE term of its two argument arrays.

  Row compaction by scatter: a token (b, i) is VALID when the id array holds 1 there; its destination row is the
  number of valid tokens strictly before it in row b (the running count minus one); an invalid token is sent to the
  extra row 512. The index vectors (b, destination) are laid side by side, the tokens' feature rows are scattered
  ("set") into a zero array of 513 rows per batch entry, and the first 512 rows are kept.
-/
import proofs.«177381_j41016937677038_2_alg».proof.Proof.Gen.ReferenceIdeal

noncomputable section

namespace Cert.ReferenceIdeal.RefValue

open Cert.ReferenceIdeal Idealize.ShloMosaic Cert.ReferenceIdeal.Facts₀

variable {F : FTy → Type} [FloatOps F]

/-- Token (b, i) is valid: the id array holds 1 there. -/
def validOf (a1 : IVec S64x512 32) : IVec S64x512 1 :=
  cmpi .eq a1 (broadcastInDim S64x512 ![] bcast_S_S64x512 (constantI S_ 32 1#32))

/-- The running count of valid tokens along a row (a padded sliding-window sum of the 0/1 indicator), minus one. -/
def posOf (a1 : IVec S64x512 32) : IVec S64x512 32 :=
  subi
    (Host.reduceWindow IntOp.addi ![1, 512] ![1, 1] ![0, 511] ![0, 0] (extui 32 (validOf a1) natLt_1_32)
      (broadcastInDim S_ ![] bcast_S_S_ (constantI S_ 32 0#32)) reduceWindows_S64x512_S64x512_w1s1p0_0_w512s1p511_0 h_S_)
    (broadcastInDim S64x512 ![] bcast_S_S64x512 (constantI S_ 32 1#32))

/-- The destination row: the position among the valid tokens, or 512 for an invalid token. -/
def destOf (a1 : IVec S64x512 32) : IVec S64x512 32 :=
  select (validOf a1) (posOf a1) (broadcastInDim S64x512 ![] bcast_S_S64x512 (id (constantI S_ 32 512#32)))

/-- The batch coordinate 0..63 as a column, a negative value wrapped by 64 (none is negative). -/
def batchCol : IVec S64x1 32 :=
  select (cmpi .slt (broadcastInDim S64x1 ![0] bcast_S64_S64x1_0 (iotaInDim S64 32 0))
      (broadcastInDim S64x1 ![] bcast_S_S64x1 (constantI S_ 32 0#32)))
    (addi (broadcastInDim S64x1 ![0] bcast_S64_S64x1_0 (iotaInDim S64 32 0))
      (broadcastInDim S64x1 ![] bcast_S_S64x1 (constantI S_ 32 64#32)))
    (broadcastInDim S64x1 ![0] bcast_S64_S64x1_0 (iotaInDim S64 32 0))

/-- The destination row, a negative value wrapped by 513. -/
def wrapDest (a1 : IVec S64x512 32) : IVec S64x512 32 :=
  select (cmpi .slt (destOf a1) (broadcastInDim S64x512 ![] bcast_S_S64x512 (constantI S_ 32 0#32)))
    (addi (destOf a1) (broadcastInDim S64x512 ![] bcast_S_S64x512 (constantI S_ 32 513#32)))
    (destOf a1)

/-- The scatter's index vectors: (batch coordinate, destination row) per token. -/
def scatterIdx (a1 : IVec S64x512 32) : IVec S64x512x2 32 :=
  concatenate S64x512x2 2
    [⟨S64x512x1, broadcastInDim S64x512x1 ![0, 1] bcast_S64x512_S64x512x1_0_1
        (broadcastInDim S64x512 ![0, 1] bcast_S64x1_S64x512_0_1 batchCol)⟩,
     ⟨S64x512x1, broadcastInDim S64x512x1 ![0, 1] bcast_S64x512_S64x512x1_0_1 (wrapDest a1)⟩]
    concatenates_S64x512x1_S64x512x1_S64x512x2_d2

/-- The reference's result: the tokens' rows scattered into 513 zero rows per batch entry, the first 512 kept. -/
def refOut (a0 : FVec F S64x512x768 .f32) (a1 : IVec S64x512 32) : FVec F S64x512x768 .f32 :=
  extractStridedSlice S64x512x768 ![0, 0, 0]
    (Host.scatter scatter_S64x513x768_S64x512x2_S64x512x768_2_01_01_2 (fun _ b => b)
      (broadcastInDim S64x513x768 ![] bcast_S_S64x513x768 (constant S_ .f32 0x00000000#32)) (scatterIdx a1) a0)
    slices_S64x513x768_S64x512x768_0_0_0

end Cert.ReferenceIdeal.RefValue

end
-- ==== Proof.RefRun.lean ====
/-
  The reference program's run, read back at its result buffer.

  The program is a straight line of tensor operations: the three outlined functions it calls (the running sum,
  the inner running sum it calls in turn, and the three-way choice) are executed at their call sites, each value
  of a callee's body in a buffer of its own. Listed in order, the calls unfolded, the program is a sequence of
  thirty-eight operations; every weakly fair execution of it terminates, and the contents of each buffer at the
  end are the operations' results composed in order. At the result buffer that composition is the term
  `refOut` of the two argument arrays; the two argument buffers are written by no operation and keep their
  contents.
-/
import proofs.«177381_j41016937677038_2_alg».proof.Proof.RefTerm
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo Cert.ReferenceIdeal.Facts₀

variable {F : FTy → Type} [FloatOps F]

/-- The program's thirty-eight operations in order, the calls unfolded: four of its own (the indicator of the valid
    tokens as 0/1 integers), the inner running sum's three (its zero, the zero as the window's initial value, the
    padded sliding-window sum), four of its own (subtracting one; the scalar 512), the three-way choice's three (the
    scalar at its own type, broadcast, the choice), and the remaining twenty-four of its own (the batch coordinate,
    the zero array, the two wraps of negative coordinates, the index vectors, the scatter, the slice). -/
abbrev ops : List (HloOp τ sig (Elt F)) :=
  [ nullary main_c (constantI S_ 32 1#32),
    unary main_c main_v0 (broadcastInDim S64x512 ![] bcast_S_S64x512 : (⟨S_, .i32⟩ : BufTy).Contents (Elt F) → (⟨S64x512, .i32⟩ : BufTy).Contents (Elt F)),
    binary main_arg1 main_v0 main_v1 (cmpi .eq : (⟨S64x512, .i32⟩ : BufTy).Contents (Elt F) → (⟨S64x512, .i32⟩ : BufTy).Contents (Elt F) → (⟨S64x512, .i1⟩ : BufTy).Contents (Elt F)),
    unary main_v1 main_v2 ((extui 32 · natLt_1_32) : (⟨S64x512, .i1⟩ : BufTy).Contents (Elt F) → (⟨S64x512, .i32⟩ : BufTy).Contents (Elt F)),
    TRef.nullary main_call0.call0.c (constantI S_ 32 0#32),
    TRef.unary main_call0.call0.c main_call0.call0.v0 (broadcastInDim S_ ![] bcast_S_S_),
    TRef.binary (.of main_v2) main_call0.call0.v0 main_call0.call0.v1 (fun x v => Host.reduceWindow IntOp.addi ![1, 512] ![1, 1] ![0, 511] ![0, 0] x v reduceWindows_S64x512_S64x512_w1s1p0_0_w512s1p511_0 h_S_),
    nullary main_c_0 (constantI S_ 32 1#32),
    unary main_c_0 main_v4 (broadcastInDim S64x512 ![] bcast_S_S64x512 : (⟨S_, .i32⟩ : BufTy).Contents (Elt F) → (⟨S64x512, .i32⟩ : BufTy).Contents (Elt F)),
    binary main_v3 main_v4 main_v5 (subi : (⟨S64x512, .i32⟩ : BufTy).Contents (Elt F) → (⟨S64x512, .i32⟩ : BufTy).Contents (Elt F) → (⟨S64x512, .i32⟩ : BufTy).Contents (Elt F)),
    nullary main_c_1 (constantI S_ 32 512#32),
    TRef.unary (.of main_c_1) main_call1.v0 id,
    TRef.unary main_call1.v0 main_call1.v1 (broadcastInDim S64x512 ![] bcast_S_S64x512),
    TRef.ternary (.of main_v1) (.of main_v5) main_call1.v1 main_call1.v2 select,
    nullary main_v7 (iotaInDim S64 32 0),
    unary main_v7 main_v8 (broadcastInDim S64x1 ![0] bcast_S64_S64x1_0 : (⟨S64, .i32⟩ : BufTy).Contents (Elt F) → (⟨S64x1, .i32⟩ : BufTy).Contents (Elt F)),
    nullary main_cst (constant S_ .f32 0x00000000#32),
    unary main_cst main_v9 (broadcastInDim S64x513x768 ![] bcast_S_S64x513x768 : (⟨S_, .f32⟩ : BufTy).Contents (Elt F) → (⟨S64x513x768, .f32⟩ : BufTy).Contents (Elt F)),
    nullary main_c_2 (constantI S_ 32 0#32),
    unary main_c_2 main_v10 (broadcastInDim S64x1 ![] bcast_S_S64x1 : (⟨S_, .i32⟩ : BufTy).Contents (Elt F) → (⟨S64x1, .i32⟩ : BufTy).Contents (Elt F)),
    binary main_v8 main_v10 main_v11 (cmpi .slt : (⟨S64x1, .i32⟩ : BufTy).Contents (Elt F) → (⟨S64x1, .i32⟩ : BufTy).Contents (Elt F) → (⟨S64x1, .i1⟩ : BufTy).Contents (Elt F)),
    nullary main_c_3 (constantI S_ 32 64#32),
    unary main_c_3 main_v12 (broadcastInDim S64x1 ![] bcast_S_S64x1 : (⟨S_, .i32⟩ : BufTy).Contents (Elt F) → (⟨S64x1, .i32⟩ : BufTy).Contents (Elt F)),
    binary main_v8 main_v12 main_v13 (addi : (⟨S64x1, .i32⟩ : BufTy).Contents (Elt F) → (⟨S64x1, .i32⟩ : BufTy).Contents (Elt F) → (⟨S64x1, .i32⟩ : BufTy).Contents (Elt F)),
    ternary main_v11 main_v13 main_v8 main_v14 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    nullary main_c_4 (constantI S_ 32 0#32),
    unary main_c_4 main_v15 (broadcastInDim S64x512 ![] bcast_S_S64x512 : (⟨S_, .i32⟩ : BufTy).Contents (Elt F) → (⟨S64x512, .i32⟩ : BufTy).Contents (Elt F)),
    binary main_v6 main_v15 main_v16 (cmpi .slt : (⟨S64x512, .i32⟩ : BufTy).Contents (Elt F) → (⟨S64x512, .i32⟩ : BufTy).Contents (Elt F) → (⟨S64x512, .i1⟩ : BufTy).Contents (Elt F)),
    nullary main_c_5 (constantI S_ 32 513#32),
    unary main_c_5 main_v17 (broadcastInDim S64x512 ![] bcast_S_S64x512 : (⟨S_, .i32⟩ : BufTy).Contents (Elt F) → (⟨S64x512, .i32⟩ : BufTy).Contents (Elt F)),
    binary main_v6 main_v17 main_v18 (addi : (⟨S64x512, .i32⟩ : BufTy).Contents (Elt F) → (⟨S64x512, .i32⟩ : BufTy).Contents (Elt F) → (⟨S64x512, .i32⟩ : BufTy).Contents (Elt F)),
    ternary main_v16 main_v18 main_v6 main_v19 (select : (⟨S64x512, .i1⟩ : BufTy).Contents (Elt F) → (⟨S64x512, .i32⟩ : BufTy).Contents (Elt F) → (⟨S64x512, .i32⟩ : BufTy).Contents (Elt F) → (⟨S64x512, .i32⟩ : BufTy).Contents (Elt F)),
    unary main_v14 main_v20 (broadcastInDim S64x512 ![0, 1] bcast_S64x1_S64x512_0_1 : (⟨S64x1, .i32⟩ : BufTy).Contents (Elt F) → (⟨S64x512, .i32⟩ : BufTy).Contents (Elt F)),
    unary main_v20 main_v21 (broadcastInDim S64x512x1 ![0, 1] bcast_S64x512_S64x512x1_0_1 : (⟨S64x512, .i32⟩ : BufTy).Contents (Elt F) → (⟨S64x512x1, .i32⟩ : BufTy).Contents (Elt F)),
    unary main_v19 main_v22 (broadcastInDim S64x512x1 ![0, 1] bcast_S64x512_S64x512x1_0_1 : (⟨S64x512, .i32⟩ : BufTy).Contents (Elt F) → (⟨S64x512x1, .i32⟩ : BufTy).Contents (Elt F)),
    binary main_v21 main_v22 main_v23 ((fun a b => concatenate S64x512x2 2 [⟨S64x512x1, a⟩, ⟨S64x512x1, b⟩] concatenates_S64x512x1_S64x512x1_S64x512x2_d2) : (⟨S64x512x1, .i32⟩ : BufTy).Contents (Elt F) → (⟨S64x512x1, .i32⟩ : BufTy).Contents (Elt F) → (⟨S64x512x2, .i32⟩ : BufTy).Contents (Elt F)),
    ternary main_v9 main_v23 main_arg0 main_v24 ((fun x i u => Host.scatter scatter_S64x513x768_S64x512x2_S64x512x768_2_01_01_2 (fun _ b => b) x i u) : (⟨S64x513x768, .f32⟩ : BufTy).Contents (Elt F) → (⟨S64x512x2, .i32⟩ : BufTy).Contents (Elt F) → (⟨S64x512x768, .f32⟩ : BufTy).Contents (Elt F) → (⟨S64x513x768, .f32⟩ : BufTy).Contents (Elt F)),
    unary main_v24 main_v25 ((extractStridedSlice S64x512x768 ![0, 0, 0] · slices_S64x513x768_S64x512x768_0_0_0) : (⟨S64x513x768, .f32⟩ : BufTy).Contents (Elt F) → (⟨S64x512x768, .f32⟩ : BufTy).Contents (Elt F)) ]

-- thirty-eight binds re-associated: the rewrite under the chain recurses once per statement
set_option maxRecDepth 1024 in
/-- The program is that straight line: the functions' definitions unfolded at their calls, both sides are one chain of
    operation steps once sequencing is reassociated. -/
theorem main_eq (c : Dev nD) : main (F := F) c = seq ops := by
  simp only [main, fn_cumsum.body, fn_cumsum_0.body, fn_where.body, seq, bind_assoc, pure_bind]

/-- No buffer of the program is scoped. -/
theorem scopedRefs_eq : (Finset.univ.filter fun b : Ref sig .tc => b.isScoped) = ∅ := by decide
/-- The program has no semaphore, hence no scoped one. -/
theorem scopedSems_eq : (Finset.univ.filter fun sm : SemLoc sig => sm.isScoped .tc) = ∅ := by decide

/-- Every operation touches buffers of the tensor unit only. -/
theorem ops_sub : (ops : List (HloOp τ sig (Elt F))).Forall fun op => op.bufs ⊆ tcRefs τ sig :=
  ⟨nullary_bufs_sub .., unary_bufs_sub .., binary_bufs_sub .., unary_bufs_sub ..,
    nullary_bufs_sub .., unary_bufs_sub .., binary_bufs_sub ..,
    nullary_bufs_sub .., unary_bufs_sub .., binary_bufs_sub .., nullary_bufs_sub ..,
    unary_bufs_sub .., unary_bufs_sub .., ternary_bufs_sub ..,
    nullary_bufs_sub .., unary_bufs_sub .., nullary_bufs_sub .., unary_bufs_sub ..,
    nullary_bufs_sub .., unary_bufs_sub .., binary_bufs_sub ..,
    nullary_bufs_sub .., unary_bufs_sub .., binary_bufs_sub .., ternary_bufs_sub ..,
    nullary_bufs_sub .., unary_bufs_sub .., binary_bufs_sub ..,
    nullary_bufs_sub .., unary_bufs_sub .., binary_bufs_sub .., ternary_bufs_sub ..,
    unary_bufs_sub .., unary_bufs_sub .., unary_bufs_sub .., binary_bufs_sub ..,
    ternary_bufs_sub .., unary_bufs_sub ..⟩

/-- The contents of one buffer after a line already unrolled, by rewriting: each operation's result at the buffer it
    writes is its function's value, at any other buffer what was there before it. -/
local macro "results_rw" : tactic =>
  `(tactic| (repeat (first
               | rw [nullary_result] | rw [unary_result] | rw [binary_result] | rw [ternary_result]
               | (rw [nullary_result_ne]; rotate_left; decide)
               | (rw [unary_result_ne]; rotate_left; decide)
               | (rw [binary_result_ne]; rotate_left; decide)
               | (rw [ternary_result_ne]; rotate_left; decide))))

attribute [local irreducible] Host.scatter Host.reduceWindow concatenate extractStridedSlice broadcastInDim in
set_option maxRecDepth 8192 in
/-- The contents of the result buffer after the line, from any contents `V`: the fold unrolled, each operation's
    result read at the buffer it writes and passed over at every other, is the composition of the operations'
    functions along the data flow, which is `refOut` with its parts unfolded. The scatter, the sliding-window sum
    and the shape operations stay folded: the equation never looks inside them. A callee's value moved to its
    buffer's type and back is the value itself, the two types being the same. -/
theorem out_eq (V : Valuation τ sig (Elt F)) :
    after ops V (main_v25 : DevRef τ sig) = refOut (V (main_arg0 : DevRef τ sig)) (V (main_arg1 : DevRef τ sig)) := by
  after_results_simp
  results_rw
  unfold refOut scatterIdx wrapDest batchCol destOf posOf validOf
  rfl

set_option maxRecDepth 8192 in
/-- No operation writes the first argument's buffer. -/
theorem arg0_eq (V : Valuation τ sig (Elt F)) :
    after ops V (main_arg0 : DevRef τ sig) = V (main_arg0 : DevRef τ sig) := by
  after_results_simp

set_option maxRecDepth 8192 in
/-- No operation writes the second argument's buffer. -/
theorem arg1_eq (V : Valuation τ sig (Elt F)) :
    after ops V (main_arg1 : DevRef τ sig) = V (main_arg1 : DevRef τ sig) := by
  after_results_simp

/-- On every device, for any float values, from any memory with zero counters: every weakly fair execution of the
    program terminates with the result buffer at `refOut` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v25).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.RefValue

end
-- ==== Proof.ScatterSet.lean ====
/-
  A scatter whose combiner returns the update ("set"), read at one element.

  The scatter is a left fold over the update indices: each step either leaves element k alone or overwrites it.
  If no update lands on k, the operand's element survives; if every update landing on k carries one common value,
  that value is what the fold leaves there, whatever the order.
-/
import Idealize.ShloMosaic.PureOps

noncomputable section

namespace Cert.Compaction

open Idealize.ShloMosaic

/-- A fold none of whose steps touches element k leaves it as it started. -/
theorem foldl_apply_of_untouched {ι κ α : Type} (step : (κ → α) → ι → (κ → α)) (k : κ) :
    ∀ (l : List ι) (r0 : κ → α), (∀ n ∈ l, ∀ r, step r n k = r k) → (l.foldl step r0) k = r0 k := by
  intro l
  induction l with
  | nil => intro r0 _; rfl
  | cons a l ih =>
    intro r0 h
    rw [List.foldl_cons, ih _ (fun n hn => h n (List.mem_cons_of_mem a hn))]
    exact h a (List.mem_cons_self ..) r0

/-- A fold each of whose steps leaves element k alone or sets it to c, and one of whose steps does set it, ends with c there. -/
theorem foldl_apply_of_common {ι κ α : Type} (step : (κ → α) → ι → (κ → α)) (k : κ) (c : α) :
    ∀ (l : List ι) (r0 : κ → α) (n0 : ι), n0 ∈ l → (∀ r, step r n0 k = c) →
      (∀ n ∈ l, ∀ r, step r n k = r k ∨ step r n k = c) → (l.foldl step r0) k = c := by
  intro l
  induction l using List.reverseRecOn with
  | nil => intro r0 n0 h0; exact absurd h0 List.not_mem_nil
  | append_singleton l a ih =>
    intro r0 n0 h0 hhit hoth
    rw [List.foldl_append, List.foldl_cons, List.foldl_nil]
    rcases List.mem_append.1 h0 with hl | ha
    · rcases hoth a (List.mem_append_right _ (List.mem_singleton.2 rfl)) (l.foldl step r0) with e | e
      · rw [e]
        exact ih r0 n0 hl hhit (fun n hn => hoth n (List.mem_append_left _ hn))
      · exact e
    · have : n0 = a := List.mem_singleton.1 ha
      subst this
      exact hhit _

variable {s si u : Shape} {w : Nat} {α : Type}

/-- No update lands on element k: the operand's element survives. -/
theorem scatter_set_apply_of_none (d : ScatterDims s si u) (x : s.Idx → α) (idx : IVec si w) (upd : u.Idx → α) (k : s.Idx)
    (hnone : ∀ j, d.resultIdx? j idx ≠ some k) : Host.scatter d (fun _ b => b) x idx upd k = x k := by
  unfold Host.scatter
  refine foldl_apply_of_untouched _ k _ x (fun n _ r => ?_)
  have hn := hnone (u.rowMajor.symm n)
  cases hres : d.resultIdx? (u.rowMajor.symm n) idx with
  | none => rfl
  | some i =>
    have hne : k ≠ i := fun e => hn (by rw [hres, e])
    show (if k = i then _ else r k) = r k
    exact if_neg hne

/-- Every update landing on element k carries the value of update j0, which does land there: that value is the result. -/
theorem scatter_set_apply_of_common (d : ScatterDims s si u) (x : s.Idx → α) (idx : IVec si w) (upd : u.Idx → α) (k : s.Idx)
    (j0 : u.Idx) (h0 : d.resultIdx? j0 idx = some k) (hcommon : ∀ j, d.resultIdx? j idx = some k → upd j = upd j0) :
    Host.scatter d (fun _ b => b) x idx upd k = upd j0 := by
  unfold Host.scatter
  refine foldl_apply_of_common _ k (upd j0) _ x (u.rowMajor j0) (List.mem_finRange _) (fun r => ?_) (fun n _ r => ?_)
  · rw [Equiv.symm_apply_apply, h0]
    show (if k = k then upd j0 else r k) = upd j0
    exact if_pos rfl
  · cases hres : d.resultIdx? (u.rowMajor.symm n) idx with
    | none => left; rfl
    | some i =>
      by_cases hk : k = i
      · right
        show (if k = i then upd (u.rowMajor.symm n) else r k) = upd j0
        rw [if_pos hk]
        exact hcommon _ (by rw [hres, hk])
      · left
        show (if k = i then _ else r k) = r k
        exact if_neg hk

end Cert.Compaction

end
-- ==== Proof.ScatterIndex.lean ====
/-
  The reference's scatter, read at ONE update index.

  The scatter's index array holds, for token (b, i), the pair (batch number b, wrapped destination row): the two
  columns are laid side by side along a last axis of extent 2. Component 0 is the word `b` (the batch coordinate,
  which is never negative, so its wrap by 64 does nothing); component 1 is the destination word — the position among
  the row's valid tokens, or 512 for an invalid token — a negative value wrapped by 513. With the scatter's dimension
  numbers, update (b, i, d) starts its window at operand row (index component 0, index component 1) and moves along
  the feature axis by `d`: when the two components read (b, r) as signed integers it lands at (b, r, d).
-/
import proofs.«177381_j41016937677038_2_alg».proof.Proof.RefTerm
import proofs.«177381_j41016937677038_2_alg».proof.Proof.Compact
import Idealize.ShloMosaic.Lib.ValueIdx
import Idealize.ShloMosaic.Lib.Pipeline.Value

noncomputable section

namespace Cert.ReferenceIdeal.RefValue

open Cert.ReferenceIdeal Idealize.ShloMosaic Idealize.ShloMosaic.ValueIdx Cert.ReferenceIdeal.Facts₀

attribute [local irreducible] Host.reduceWindow

/-! ## The index vectors -/

/-- A word below 2³¹ is not negative as a signed integer. -/
private theorem slt_zero_of_lt (n : ℕ) (hn : n < 2 ^ 31) : IntOp.cmpi .slt (BitVec.ofNat 32 n) 0#32 = 0#1 := by
  have hnot : ¬ (BitVec.ofNat 32 n).toInt < (0#32 : BitVec 32).toInt := by
    rw [BitVec.toInt_eq_toNat_cond, BitVec.toInt_eq_toNat_cond]
    simp only [BitVec.toNat_ofNat]
    have h1 : n % 2 ^ 32 = n := Nat.mod_eq_of_lt (by omega)
    rw [h1]
    split_ifs <;> omega
  have h : (BitVec.ofNat 32 n).slt 0#32 = false := by
    unfold BitVec.slt
    exact decide_eq_false hnot
  show BitVec.ofBool ((BitVec.ofNat 32 n).slt 0#32) = 0#1
  rw [h]; rfl

/-- The batch column at row `b` is the word `b`: it is not negative, so it is not wrapped. -/
private theorem batchCol_apply (b : Fin 64) : batchCol (ix2 b (0 : Fin 1)) = BitVec.ofNat 32 b.val := by
  have hB : broadcastInDim S64x1 ![0] bcast_S64_S64x1_0 (iotaInDim S64 32 0) (ix2 b (0 : Fin 1)) = BitVec.ofNat 32 b.val := by
    rw [broadcastInDim_apply _ _ _ (ix2 b (0 : Fin 1)) (ix1 b) (fun c => by match c with | ⟨0, _⟩ => rfl)]
    rfl
  unfold batchCol
  rw [select_apply]
  show Scalar.select (IntOp.cmpi .slt (broadcastInDim S64x1 ![0] bcast_S64_S64x1_0 (iotaInDim S64 32 0) (ix2 b (0 : Fin 1))) 0#32) _ _ = _
  rw [hB, slt_zero_of_lt b.val (by have := b.isLt; omega), select_zero]

/-- The first component of token (b, i)'s index vector is the batch number. -/
theorem scatterIdx_batch (a1 : IVec S64x512 32) (b : Fin 64) (i : Fin 512) :
    scatterIdx a1 (ix3 b i (0 : Fin 2)) = BitVec.ofNat 32 b.val := by
  unfold scatterIdx
  rw [concatenate_pair_apply_left (t := S64x512x2) (s₁ := S64x512x1) (s₂ := S64x512x1) (2 : Fin 3) _ _
    concatenates_S64x512x1_S64x512x1_S64x512x2_d2 (ix3 b i (0 : Fin 2)) rfl
    (ix3 b i (0 : Fin 1)) (fun c => by match c with | ⟨0, _⟩ => rfl | ⟨1, _⟩ => rfl | ⟨2, _⟩ => rfl)]
  rw [broadcastInDim_apply _ _ _ (ix3 b i (0 : Fin 1)) (ix2 b i) (fun c => by match c with | ⟨0, _⟩ => rfl | ⟨1, _⟩ => rfl)]
  rw [broadcastInDim_apply _ _ _ (ix2 b i) (ix2 b (0 : Fin 1)) (fun c => by match c with | ⟨0, _⟩ => rfl | ⟨1, _⟩ => rfl)]
  exact batchCol_apply b

/-- The wrapped destination word at (b, i), in the words of the compaction's own definitions. -/
private theorem wrapDest_apply (a1 : IVec S64x512 32) (b : Fin 64) (i : Fin 512) :
    wrapDest a1 (ix2 b i) = Cert.Compaction.wrap513 (Cert.Compaction.destDump a1 (ix2 b i)) := rfl

/-- The second component is the wrapped destination word. -/
theorem scatterIdx_row (a1 : IVec S64x512 32) (b : Fin 64) (i : Fin 512) :
    scatterIdx a1 (ix3 b i (1 : Fin 2)) = Cert.Compaction.wrap513 (Cert.Compaction.destDump a1 (ix2 b i)) := by
  unfold scatterIdx
  rw [concatenate_pair_apply_right (t := S64x512x2) (s₁ := S64x512x1) (s₂ := S64x512x1) (2 : Fin 3) _ _
    concatenates_S64x512x1_S64x512x1_S64x512x2_d2 (ix3 b i (1 : Fin 2)) rfl rfl
    (ix3 b i (0 : Fin 1)) (fun c hc => by
      match c with
      | ⟨0, _⟩ => rfl
      | ⟨1, _⟩ => rfl
      | ⟨2, _⟩ => exact absurd rfl hc) rfl]
  rw [broadcastInDim_apply _ _ _ (ix3 b i (0 : Fin 1)) (ix2 b i) (fun c => by match c with | ⟨0, _⟩ => rfl | ⟨1, _⟩ => rfl)]
  exact wrapDest_apply a1 b i

/-! ## Where an update lands -/

/-- The reference's scatter dimension numbers: the update's last axis is its window, operand axes 0 and 1 are
    addressed by the two components of the index vector, which lies along the index array's last axis. -/
private abbrev sd := scatter_S64x513x768_S64x512x2_S64x512x768_2_01_01_2

/-- Update (b, i, d) reads component `c` of its index vector at (b, i, c). -/
private theorem siIdx_eq (b : Fin 64) (i : Fin 512) (d : Fin 768) (c : Fin 2) :
    sd.siIdx (ix3 b i d) c = ix3 b i c := by
  funext a
  match a with
  | ⟨0, _⟩ => rfl
  | ⟨1, _⟩ => rfl
  | ⟨2, _⟩ => rfl

private theorem start_0 (idx : IVec S64x512x2 32) (b : Fin 64) (i : Fin 512) (d : Fin 768) :
    sd.start (ix3 b i d) idx (0 : Fin 3) = (idx (ix3 b i (0 : Fin 2))).toInt := by
  unfold ScatterDims.start
  rw [dif_pos (by decide)]
  exact congrArg (fun k => (idx k).toInt) (siIdx_eq b i d 0)

private theorem start_1 (idx : IVec S64x512x2 32) (b : Fin 64) (i : Fin 512) (d : Fin 768) :
    sd.start (ix3 b i d) idx (1 : Fin 3) = (idx (ix3 b i (1 : Fin 2))).toInt := by
  unfold ScatterDims.start
  rw [dif_pos (by decide)]
  exact congrArg (fun k => (idx k).toInt) (siIdx_eq b i d 1)

private theorem start_2 (idx : IVec S64x512x2 32) (b : Fin 64) (i : Fin 512) (d : Fin 768) :
    sd.start (ix3 b i d) idx (2 : Fin 3) = 0 := rfl

private theorem window_0 (b : Fin 64) (i : Fin 512) (d : Fin 768) : sd.window (ix3 b i d) (0 : Fin 3) = 0 := rfl
private theorem window_1 (b : Fin 64) (i : Fin 512) (d : Fin 768) : sd.window (ix3 b i d) (1 : Fin 3) = 0 := rfl
private theorem window_2 (b : Fin 64) (i : Fin 512) (d : Fin 768) : sd.window (ix3 b i d) (2 : Fin 3) = d.val := rfl

/-- Update (b, i, d) lands at (b, r, d) when its index vector reads (b, r) as signed integers. -/
theorem resultIdx_eq (idx : IVec S64x512x2 32) (b : Fin 64) (i : Fin 512) (d : Fin 768) (r : Fin 513)
    (h0 : (idx (ix3 b i (0 : Fin 2))).toInt = (b.val : ℤ)) (h1 : (idx (ix3 b i (1 : Fin 2))).toInt = (r.val : ℤ)) :
    scatter_S64x513x768_S64x512x2_S64x512x768_2_01_01_2.resultIdx? (ix3 b i d) idx = some (ix3 b r d) := by
  have hb := b.isLt; have hr := r.isLt; have hd := d.isLt
  have e0 : sd.start (ix3 b i d) idx (0 : Fin 3) + (sd.window (ix3 b i d) (0 : Fin 3) : ℤ) = (b.val : ℤ) := by
    rw [start_0, window_0, h0]; simp
  have e1 : sd.start (ix3 b i d) idx (1 : Fin 3) + (sd.window (ix3 b i d) (1 : Fin 3) : ℤ) = (r.val : ℤ) := by
    rw [start_1, window_1, h1]; simp
  have e2 : sd.start (ix3 b i d) idx (2 : Fin 3) + (sd.window (ix3 b i d) (2 : Fin 3) : ℤ) = (d.val : ℤ) := by
    rw [start_2, window_2]; simp
  have hall : ∀ a : Fin 3, 0 ≤ sd.start (ix3 b i d) idx a + (sd.window (ix3 b i d) a : ℤ) ∧
      sd.start (ix3 b i d) idx a + (sd.window (ix3 b i d) a : ℤ) < (S64x513x768.size a : ℤ) := by
    intro a
    match a with
    | ⟨0, _⟩ => rw [show (⟨0, _⟩ : Fin 3) = (0 : Fin 3) from rfl, e0]; show (0 : ℤ) ≤ b.val ∧ (b.val : ℤ) < (64 : ℕ); omega
    | ⟨1, _⟩ => rw [show (⟨1, _⟩ : Fin 3) = (1 : Fin 3) from rfl, e1]; show (0 : ℤ) ≤ r.val ∧ (r.val : ℤ) < (513 : ℕ); omega
    | ⟨2, _⟩ => rw [show (⟨2, _⟩ : Fin 3) = (2 : Fin 3) from rfl, e2]; show (0 : ℤ) ≤ d.val ∧ (d.val : ℤ) < (768 : ℕ); omega
  unfold ScatterDims.resultIdx?
  rw [dif_pos hall]
  refine congrArg some (funext fun a => Fin.ext ?_)
  match a with
  | ⟨0, _⟩ => show (sd.start (ix3 b i d) idx (0 : Fin 3) + (sd.window (ix3 b i d) (0 : Fin 3) : ℤ)).toNat = b.val; rw [e0]; omega
  | ⟨1, _⟩ => show (sd.start (ix3 b i d) idx (1 : Fin 3) + (sd.window (ix3 b i d) (1 : Fin 3) : ℤ)).toNat = r.val; rw [e1]; omega
  | ⟨2, _⟩ => show (sd.start (ix3 b i d) idx (2 : Fin 3) + (sd.window (ix3 b i d) (2 : Fin 3) : ℤ)).toNat = d.val; rw [e2]; omega

end Cert.ReferenceIdeal.RefValue

end
-- ==== Proof.RefValue.lean ====
/-
  The reference's result is the compacted array.

  Update (b, i, d) of the scatter lands at (b, ρ, d), where the landing row ρ of token (b, i) is its count minus one
  when it is valid and the extra row 512 when it is not. So an update lands on (b, j, d) with j < 512 exactly when its
  token hits row j; at most one token does, and all its updates at feature d carry x(b, i, d). The "set" scatter
  therefore leaves that element there, or the initial zero when no token hits row j; the slice keeps rows below 512.
-/
import proofs.«177381_j41016937677038_2_alg».proof.Proof.RefTerm
import proofs.«177381_j41016937677038_2_alg».proof.Proof.ScatterSet
import proofs.«177381_j41016937677038_2_alg».proof.Proof.ScatterIndex
import proofs.«177381_j41016937677038_2_alg».proof.Proof.Compact
import Idealize.ShloMosaic.Lib.Pipeline.Value
import Idealize.ShloMosaic.PureOps.Ideal.Laws

noncomputable section

namespace Cert.ReferenceIdeal.RefValue

open Cert.ReferenceIdeal Idealize.ShloMosaic Idealize.ShloMosaic.ValueIdx Cert.ReferenceIdeal.Facts₀ Cert.Compaction

/-- The landing row of token (b, i): its count minus one if valid, the extra row 512 if not. -/
def landRow (a1 : IVec S64x512 32) (b : Fin 64) (i : Fin 512) : Fin 513 :=
  ⟨if a1 (ix2 b i) = 1#32 then onesUpTo (ind a1) b i - 1 else 512, by
    split
    · next h => have := (onesUpTo_pos_le (ind a1) b i (ind_of_valid a1 _ h)).2; omega
    · omega⟩

theorem toInt_batch (b : Fin 64) : (BitVec.ofNat 32 b.val).toInt = (b.val : ℤ) := by
  have hb : b.val < 64 := b.isLt
  rw [BitVec.toInt_eq_toNat_cond]
  simp only [BitVec.toNat_ofNat]
  split <;> omega

/-- Every update lands, at its token's landing row. -/
theorem land (a1 : IVec S64x512 32) (b : Fin 64) (i : Fin 512) (d : Fin 768) :
    scatter_S64x513x768_S64x512x2_S64x512x768_2_01_01_2.resultIdx? (ix3 b i d) (scatterIdx a1) = some (ix3 b (landRow a1 b i) d) := by
  refine resultIdx_eq (scatterIdx a1) b i d (landRow a1 b i) ?_ ?_
  · rw [scatterIdx_batch]; exact toInt_batch b
  · rw [scatterIdx_row, wrap_destDump_toInt]
    unfold landRow
    split <;> rfl

/-- An update lands on (b, j, d), j a row below 512, exactly when it is (b, i, d) for a token hitting row j. -/
theorem land_iff (a1 : IVec S64x512 32) (b b' : Fin 64) (i j : Fin 512) (d d' : Fin 768) (j' : Fin 513) (hj : j'.val = j.val) :
    scatter_S64x513x768_S64x512x2_S64x512x768_2_01_01_2.resultIdx? (ix3 b' i d') (scatterIdx a1) = some (ix3 b j' d)
      ↔ b' = b ∧ d' = d ∧ Hit a1 b i j := by
  rw [land]
  constructor
  · intro e
    have e' := Option.some.inj e
    have hb : b' = b := congrFun e' 0
    have hr : landRow a1 b' i = j' := congrFun e' 1
    have hd : d' = d := congrFun e' 2
    subst hb; subst hd
    refine ⟨rfl, rfl, ?_⟩
    have hv : (landRow a1 b' i).val = j.val := by rw [hr, hj]
    have hlt : j.val < 512 := j.isLt
    unfold landRow at hv
    by_cases h : a1 (ix2 b' i) = 1#32
    · simp only [h, if_true] at hv
      have := (onesUpTo_pos_le (ind a1) b' i (ind_of_valid a1 _ h)).1
      exact ⟨h, by omega⟩
    · simp only [h, if_false] at hv
      omega
  · rintro ⟨rfl, rfl, h⟩
    have : landRow a1 b' i = j' := by
      apply Fin.ext
      rw [hj]
      unfold landRow
      simp only [h.1, if_true]
      have := h.2
      omega
    rw [this]

/-- THE REFERENCE'S RESULT is the compacted array of its arguments. -/
theorem refOut_eq (a0 : FVec Ideal S64x512x768 .f32) (a1 : IVec S64x512 32) : refOut (F := Ideal) a0 a1 = compact a0 a1 := by
  funext k
  obtain ⟨b, j, d, rfl⟩ : ∃ (b : Fin 64) (j : Fin 512) (d : Fin 768), k = ix3 b j d := ⟨k 0, k 1, k 2, eq_ix3 k⟩
  have hj513 : j.val < 513 := by have := j.isLt; omega
  unfold refOut
  refine (extractStridedSlice_apply _ _ _ (ix3 b j d) (ix3 b (⟨j.val, hj513⟩ : Fin 513) d) (fun a => by
    match a with
    | ⟨0, _⟩ => exact (Nat.zero_add _).symm
    | ⟨1, _⟩ => exact (Nat.zero_add _).symm
    | ⟨2, _⟩ => exact (Nat.zero_add _).symm)).trans ?_
  by_cases hex : ∃ i, Hit a1 b i j
  · obtain ⟨i0, h0⟩ := hex
    rw [compact_of_hit a0 a1 b i0 j d h0]
    refine scatter_set_apply_of_common _ _ _ a0 _ (ix3 b i0 d) ((land_iff a1 b b i0 j d d _ rfl).2 ⟨rfl, rfl, h0⟩) (fun u hu => ?_)
    obtain ⟨b', i', d', rfl⟩ : ∃ (b' : Fin 64) (i' : Fin 512) (d' : Fin 768), u = ix3 b' i' d' := ⟨u 0, u 1, u 2, eq_ix3 u⟩
    obtain ⟨rfl, rfl, h'⟩ := (land_iff a1 b b' i' j d d' _ rfl).1 hu
    rw [hit_unique a1 b' i' i0 j h' h0]
  · rw [compact_of_no_hit a0 a1 b j d (fun i h => hex ⟨i, h⟩)]
    refine (scatter_set_apply_of_none _ _ _ a0 _ (fun u hu => ?_)).trans ?_
    · obtain ⟨b', i', d', rfl⟩ : ∃ (b' : Fin 64) (i' : Fin 512) (d' : Fin 768), u = ix3 b' i' d' := ⟨u 0, u 1, u 2, eq_ix3 u⟩
      obtain ⟨rfl, rfl, h'⟩ := (land_iff a1 b b' i' j d d' _ rfl).1 hu
      exact hex ⟨i', h'⟩
    · show Ideal.ofBits .f32 0x00000000#32 = 0
      exact Ideal.ofBits_zero_f32

end Cert.ReferenceIdeal.RefValue

end
-- ==== Proof.lean ====
/-
  Token compaction: for each of 64 batch entries, the rows of x whose id is 1 are moved, in order, to the front of a
  zero array of 512 rows.

  The kernel does it with a 0/1 selection matrix M[j, i] = 1 when token i's destination word is j (the destination
  of a valid token is the number of valid tokens before it; an invalid token carries the word -1, which is no row),
  multiplying M once with x and once with x - x and adding the products, two batch entries per grid point. The
  reference scatters every token's row to its destination row of a 513-row zero array (an invalid token goes to the
  extra row 512) and keeps the first 512 rows.

  Over the extended reals, with every entry of x a real number: the valid tokens of a batch entry have pairwise
  different destinations (their running counts increase strictly), so at most one token hits row j; the kernel's sum
  over tokens of M[j, i] · x(i, d) is that token's x(i, d) or an empty sum, its second product vanishes because
  x - x = 0 on reals, and the reference's scatter leaves exactly that token's row at row j, or the initial zero.
  Both results are the one function `Cert.Compaction.compact` of the arguments.

  The three frame claims are the generated frames (the reference's: its run with the result dropped); the one ledger
  entry (a narrowing to bf16 and back, the identity on extended reals) is its rule's statement.
-/
import proofs.«177381_j41016937677038_2_alg».proof.Defs
import proofs.«177381_j41016937677038_2_alg».proof.Proof.Gen.Kernel
import proofs.«177381_j41016937677038_2_alg».proof.Proof.Gen.Kernel.Skeleton
import proofs.«177381_j41016937677038_2_alg».proof.Proof.Gen.Kernel.Launch
import proofs.«177381_j41016937677038_2_alg».proof.Proof.Gen.Kernel.Points
import proofs.«177381_j41016937677038_2_alg».proof.Proof.Gen.Kernel.Frame
import proofs.«177381_j41016937677038_2_alg».proof.Proof.Gen.KernelIdeal
import proofs.«177381_j41016937677038_2_alg».proof.Proof.Gen.KernelIdeal.Skeleton
import proofs.«177381_j41016937677038_2_alg».proof.Proof.Gen.KernelIdeal.Launch
import proofs.«177381_j41016937677038_2_alg».proof.Proof.Gen.KernelIdeal.Points
import proofs.«177381_j41016937677038_2_alg».proof.Proof.Gen.KernelIdeal.Frame
import proofs.«177381_j41016937677038_2_alg».proof.Proof.Gen.KernelIdeal.Value
import proofs.«177381_j41016937677038_2_alg».proof.Proof.Gen.ReferenceIdeal
import proofs.«177381_j41016937677038_2_alg».proof.Proof.Gen.Pre_finite_inputs
import proofs.«177381_j41016937677038_2_alg».proof.Proof.FiniteInputs
import proofs.«177381_j41016937677038_2_alg».proof.Proof.KernelArray
import proofs.«177381_j41016937677038_2_alg».proof.Proof.RefRun
import proofs.«177381_j41016937677038_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RefValue.run (F := Ideal) m ρ)

/-- The ledger's one entry: narrowing to bf16 and widening back is the identity on extended reals. -/
theorem preserves : Cert.preserves_Kernel_KernelIdeal :=
  IdealRules.truncf_extf.statement Cert.KernelIdeal.S2x512x768 .f32 .bf16

/-- Both programs end with the compacted array of their (agreeing) arguments; the kernel's side uses that every entry
    of x is a real number, which the precondition says. -/
theorem algebraic : Cert.algebraic_KernelIdeal_ReferenceIdeal := by
  intro m ρ m' ρ' hpre hagree
  have hfin : ∀ (c : Dev Cert.KernelIdeal.nD) k, ∃ r : ℝ,
      m ((c.tc : Thread Cert.KernelIdeal.nD Cert.KernelIdeal.τ).loc Cert.KernelIdeal.main_arg0) k = (r : EReal) :=
    fun c k => Cert.Compaction.real_of_pre _ _ (hpre c) k
  refine ⟨_, Cert.KernelIdeal.Compaction.run m ρ hfin, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2]
  exact Cert.ReferenceIdeal.RefValue.refOut_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
